-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg18 : FVec F S256x64 .f32) (main_arg19 : FVec F S64 .f32) (main_v63 : IVec S_ 1) (main_v67 : IVec S_ 1) : IVec S_ 1 :=
  let main_v68 : IVec S_ 1 := andi main_v63 main_v67
  let main_v69 : FVec F S256x64 .f32 := Host.absf main_arg18
  let main_cst_26 : FVec F S_ .f32 := constant S_ .f32 0x7F800000#32
  let main_v70 : FVec F S256x64 .f32 := broadcastInDim S256x64 ![] bcast_S_S256x64 main_cst_26
  let main_v71 : IVec S256x64 1 := cmpf .olt main_v69 main_v70
  let main_c_27 : IVec S_ 1 := constantI S_ 1 1#1
  let main_v72 : IVec S_ 1 := (fun x v => Host.reduce IntOp.andi x v reducesTo_S256x64_S_d0_1 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg15 : FVec F S256x256 .f32) (main_arg16 : FVec F S256 .f32) (main_arg17 : FVec F S256x256 .f32) (main_arg18 : FVec F S256x64 .f32) (main_arg19 : FVec F S64 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg15
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg17
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg18 main_arg19 main_v63 main_v67

def fn_part2 {F : FTy → Type} [FloatOps F] (main_arg11 : FVec F S128x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x64 .f32) (main_arg19 : FVec F S64 .f32) (main_v33 : IVec S_ 1) : IVec S_ 1 :=
  let main_v34 : FVec F S128x256 .f32 := Host.absf main_arg11
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256x256 .f32 := Host.absf main_arg12
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg14
  let main_cst_18 : FVec F S_ .f32 := constant S_ .f32 0x7F800000#32
  let main_v50 : FVec F S256x256 .f32 := broadcastInDim S256x256 ![] bcast_S_S256x256 main_cst_18
  fn_part3 (F := F) main_arg15 main_arg16 main_arg17 main_arg18 main_arg19 main_v48 main_v49 main_v50

def fn_part1 {F : FTy → Type} [FloatOps F] (main_arg8 : FVec F S128x256 .f32) (main_arg9 : FVec F S128x256 .f32) (main_arg10 : FVec F S256 .f32) (main_arg11 : FVec F S128x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x64 .f32) (main_arg19 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg8
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg9
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_arg15 main_arg16 main_arg17 main_arg18 main_arg19 main_v33

def fn {F : FTy → Type} [FloatOps F] (main_arg0 : FVec F S50000x128 .f32) (main_arg1 : FVec F S50000x128 .f32) (main_arg2 : IVec S2x800000 32) (main_arg3 : IVec S2x800000 32) (main_arg4 : IVec S2x800000 32) (main_arg5 : IVec S2x800000 32) (main_arg6 : FVec F S128x256 .f32) (main_arg7 : FVec F S256 .f32) (main_arg8 : FVec F S128x256 .f32) (main_arg9 : FVec F S128x256 .f32) (main_arg10 : FVec F S256 .f32) (main_arg11 : FVec F S128x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x64 .f32) (main_arg19 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg6
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 146
  | .vmem => 42
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S2x800000, .i32⟩
  | 4 => ⟨S2x800000, .i32⟩
  | 5 => ⟨S2x800000, .i32⟩
  | 6 => ⟨S128x256, .f32⟩
  | 7 => ⟨S256, .f32⟩
  | 8 => ⟨S128x256, .f32⟩
  | 9 => ⟨S128x256, .f32⟩
  | 10 => ⟨S256, .f32⟩
  | 11 => ⟨S128x256, .f32⟩
  | 12 => ⟨S256x256, .f32⟩
  | 13 => ⟨S256, .f32⟩
  | 14 => ⟨S256x256, .f32⟩
  | 15 => ⟨S256x256, .f32⟩
  | 16 => ⟨S256, .f32⟩
  | 17 => ⟨S256x256, .f32⟩
  | 18 => ⟨S256x64, .f32⟩
  | 19 => ⟨S64, .f32⟩
  | 20 => ⟨S1x800000, .i32⟩
  | 21 => ⟨S800000, .i32⟩
  | 22 => ⟨S1x800000, .i32⟩
  | 23 => ⟨S800000, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S_, .f32⟩
  | 38 => ⟨S800000, .f32⟩
  | 39 => ⟨S_, .f32⟩
  | 40 => ⟨S50000, .f32⟩
  | 41 => ⟨S800000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x128, .f32⟩
  | 48 => ⟨S50000x128, .f32⟩
  | 49 => ⟨S1x256, .f32⟩
  | 50 => ⟨S50000x256, .f32⟩
  | 51 => ⟨S1x800000, .i32⟩
  | 52 => ⟨S800000, .i32⟩
  | 53 => ⟨S1x800000, .i32⟩
  | 54 => ⟨S800000, .i32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S_, .f32⟩
  | 69 => ⟨S800000, .f32⟩
  | 70 => ⟨S_, .f32⟩
  | 71 => ⟨S50000, .f32⟩
  | 72 => ⟨S800000x1, .i32⟩
  | 73 => ⟨S50000, .f32⟩
  | 74 => ⟨S_, .f32⟩
  | 75 => ⟨S50000, .f32⟩
  | 76 => ⟨S50000, .f32⟩
  | 77 => ⟨S50000x1, .f32⟩
  | 78 => ⟨S50000x128, .f32⟩
  | 79 => ⟨S50000x128, .f32⟩
  | 80 => ⟨S1x256, .f32⟩
  | 81 => ⟨S50000x256, .f32⟩
  | 82 => ⟨S1x800000, .i32⟩
  | 83 => ⟨S800000, .i32⟩
  | 84 => ⟨S1x800000, .i32⟩
  | 85 => ⟨S800000, .i32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x256, .f32⟩
  | 95 => ⟨S_, .f32⟩
  | 96 => ⟨S50000x256, .f32⟩
  | 97 => ⟨S800000x1, .i32⟩
  | 98 => ⟨S50000x256, .f32⟩
  | 99 => ⟨S_, .f32⟩
  | 100 => ⟨S800000, .f32⟩
  | 101 => ⟨S_, .f32⟩
  | 102 => ⟨S50000, .f32⟩
  | 103 => ⟨S800000x1, .i32⟩
  | 104 => ⟨S50000, .f32⟩
  | 105 => ⟨S_, .f32⟩
  | 106 => ⟨S50000, .f32⟩
  | 107 => ⟨S50000, .f32⟩
  | 108 => ⟨S50000x1, .f32⟩
  | 109 => ⟨S50000x256, .f32⟩
  | 110 => ⟨S50000x256, .f32⟩
  | 111 => ⟨S1x256, .f32⟩
  | 112 => ⟨S50000x256, .f32⟩
  | 113 => ⟨S1x800000, .i32⟩
  | 114 => ⟨S800000, .i32⟩
  | 115 => ⟨S1x800000, .i32⟩
  | 116 => ⟨S800000, .i32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x256, .f32⟩
  | 126 => ⟨S_, .f32⟩
  | 127 => ⟨S50000x256, .f32⟩
  | _ => ⟨S50000x128, .f32⟩

abbrev hbmTy0_1 (i : Nat) : BufTy := match i % 128 with
  | 0 => ⟨S800000x1, .i32⟩
  | 1 => ⟨S50000x256, .f32⟩
  | 2 => ⟨S_, .f32⟩
  | 3 => ⟨S800000, .f32⟩
  | 4 => ⟨S_, .f32⟩
  | 5 => ⟨S50000, .f32⟩
  | 6 => ⟨S800000x1, .i32⟩
  | 7 => ⟨S50000, .f32⟩
  | 8 => ⟨S_, .f32⟩
  | 9 => ⟨S50000, .f32⟩
  | 10 => ⟨S50000, .f32⟩
  | 11 => ⟨S50000x1, .f32⟩
  | 12 => ⟨S50000x256, .f32⟩
  | 13 => ⟨S50000x256, .f32⟩
  | 14 => ⟨S1x256, .f32⟩
  | 15 => ⟨S50000x256, .f32⟩
  | 16 => ⟨S1x64, .f32⟩
  | 17 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x256, .f32⟩
  | .local _ .vmem, ⟨14, _⟩ => ⟨S128x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S256x256, .f32⟩
  | .local _ .vmem, ⟨24, _⟩ => ⟨S1x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S256x256, .f32⟩
  | .local _ .vmem, ⟨32, _⟩ => ⟨S256x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S256x64, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_4 : Ref sig .tc := ⟨.hbm, 55, rfl⟩
abbrev main_v29 : Ref sig .tc := ⟨.hbm, 56, rfl⟩
abbrev main_v30 : Ref sig .tc := ⟨.hbm, 57, rfl⟩
abbrev main_c_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_c_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_16 : Ref sig .tc := ⟨.hbm, 117, rfl⟩
abbrev main_v79 : Ref sig .tc := ⟨.hbm, 118, rfl⟩
abbrev main_v80 : Ref sig .tc := ⟨.hbm, 119, rfl⟩
abbrev main_c_17 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_18 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_19 : Ref sig .tc := ⟨.hbm, 130, rfl⟩
abbrev main_v89 : Ref sig .tc := ⟨.hbm, 131, rfl⟩
abbrev main_cst_20 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_21 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S64_S1x64 : S64.ShapeCasts S1x64
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x64.size a ≤ S256x64.size a
  hwx4_1 : ∀ i : grid4.Coords, EltTy.bits .f32 = 32 ∨ (Rect.block (s := S256x64) S256x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v72) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v73) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v97) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg17) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v98) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v99) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v99) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg18) S256x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v100) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v101) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S50000x64 : Shape := ⟨2, ![50000, 64]⟩
abbrev S1x64 : Shape := ⟨2, ![1, 64]⟩

abbrev nBuf : Space → Nat
  | .hbm => 176
  | .vmem => 0
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S2x800000, .i32⟩
  | 4 => ⟨S2x800000, .i32⟩
  | 5 => ⟨S2x800000, .i32⟩
  | 6 => ⟨S128x256, .f32⟩
  | 7 => ⟨S256, .f32⟩
  | 8 => ⟨S128x256, .f32⟩
  | 9 => ⟨S128x256, .f32⟩
  | 10 => ⟨S256, .f32⟩
  | 11 => ⟨S128x256, .f32⟩
  | 12 => ⟨S256x256, .f32⟩
  | 13 => ⟨S256, .f32⟩
  | 14 => ⟨S256x256, .f32⟩
  | 15 => ⟨S256x256, .f32⟩
  | 16 => ⟨S256, .f32⟩
  | 17 => ⟨S256x256, .f32⟩
  | 18 => ⟨S256x64, .f32⟩
  | 19 => ⟨S64, .f32⟩
  | 20 => ⟨S1x800000, .i32⟩
  | 21 => ⟨S800000, .i32⟩
  | 22 => ⟨S1x800000, .i32⟩
  | 23 => ⟨S800000, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S_, .f32⟩
  | 38 => ⟨S800000, .f32⟩
  | 39 => ⟨S_, .f32⟩
  | 40 => ⟨S50000, .f32⟩
  | 41 => ⟨S800000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x128, .f32⟩
  | 48 => ⟨S50000x128, .f32⟩
  | 49 => ⟨S50000x256, .f32⟩
  | 50 => ⟨S1x256, .f32⟩
  | 51 => ⟨S50000x256, .f32⟩
  | 52 => ⟨S50000x256, .f32⟩
  | 53 => ⟨S50000x256, .f32⟩
  | 54 => ⟨S50000x256, .f32⟩
  | 55 => ⟨S_, .f32⟩
  | 56 => ⟨S50000x256, .f32⟩
  | 57 => ⟨S50000x256, .f32⟩
  | 58 => ⟨S1x800000, .i32⟩
  | 59 => ⟨S800000, .i32⟩
  | 60 => ⟨S1x800000, .i32⟩
  | 61 => ⟨S800000, .i32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S_, .f32⟩
  | 76 => ⟨S800000, .f32⟩
  | 77 => ⟨S_, .f32⟩
  | 78 => ⟨S50000, .f32⟩
  | 79 => ⟨S800000x1, .i32⟩
  | 80 => ⟨S50000, .f32⟩
  | 81 => ⟨S_, .f32⟩
  | 82 => ⟨S50000, .f32⟩
  | 83 => ⟨S50000, .f32⟩
  | 84 => ⟨S50000x1, .f32⟩
  | 85 => ⟨S50000x128, .f32⟩
  | 86 => ⟨S50000x128, .f32⟩
  | 87 => ⟨S50000x256, .f32⟩
  | 88 => ⟨S1x256, .f32⟩
  | 89 => ⟨S50000x256, .f32⟩
  | 90 => ⟨S50000x256, .f32⟩
  | 91 => ⟨S50000x256, .f32⟩
  | 92 => ⟨S50000x256, .f32⟩
  | 93 => ⟨S_, .f32⟩
  | 94 => ⟨S50000x256, .f32⟩
  | 95 => ⟨S50000x256, .f32⟩
  | 96 => ⟨S1x800000, .i32⟩
  | 97 => ⟨S800000, .i32⟩
  | 98 => ⟨S1x800000, .i32⟩
  | 99 => ⟨S800000, .i32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x256, .f32⟩
  | 109 => ⟨S_, .f32⟩
  | 110 => ⟨S50000x256, .f32⟩
  | 111 => ⟨S800000x1, .i32⟩
  | 112 => ⟨S50000x256, .f32⟩
  | 113 => ⟨S_, .f32⟩
  | 114 => ⟨S800000, .f32⟩
  | 115 => ⟨S_, .f32⟩
  | 116 => ⟨S50000, .f32⟩
  | 117 => ⟨S800000x1, .i32⟩
  | 118 => ⟨S50000, .f32⟩
  | 119 => ⟨S_, .f32⟩
  | 120 => ⟨S50000, .f32⟩
  | 121 => ⟨S50000, .f32⟩
  | 122 => ⟨S50000x1, .f32⟩
  | 123 => ⟨S50000x256, .f32⟩
  | 124 => ⟨S50000x256, .f32⟩
  | 125 => ⟨S50000x256, .f32⟩
  | 126 => ⟨S1x256, .f32⟩
  | 127 => ⟨S50000x256, .f32⟩
  | _ => ⟨S50000x128, .f32⟩

abbrev hbmTy0_1 (i : Nat) : BufTy := match i % 128 with
  | 0 => ⟨S50000x256, .f32⟩
  | 1 => ⟨S50000x256, .f32⟩
  | 2 => ⟨S50000x256, .f32⟩
  | 3 => ⟨S_, .f32⟩
  | 4 => ⟨S50000x256, .f32⟩
  | 5 => ⟨S50000x256, .f32⟩
  | 6 => ⟨S1x800000, .i32⟩
  | 7 => ⟨S800000, .i32⟩
  | 8 => ⟨S1x800000, .i32⟩
  | 9 => ⟨S800000, .i32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x256, .f32⟩
  | 19 => ⟨S_, .f32⟩
  | 20 => ⟨S50000x256, .f32⟩
  | 21 => ⟨S800000x1, .i32⟩
  | 22 => ⟨S50000x256, .f32⟩
  | 23 => ⟨S_, .f32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x256, .f32⟩
  | 34 => ⟨S50000x256, .f32⟩
  | 35 => ⟨S50000x256, .f32⟩
  | 36 => ⟨S1x256, .f32⟩
  | 37 => ⟨S50000x256, .f32⟩
  | 38 => ⟨S50000x256, .f32⟩
  | 39 => ⟨S50000x256, .f32⟩
  | 40 => ⟨S50000x256, .f32⟩
  | 41 => ⟨S_, .f32⟩
  | 42 => ⟨S50000x256, .f32⟩
  | 43 => ⟨S50000x256, .f32⟩
  | 44 => ⟨S50000x64, .f32⟩
  | 45 => ⟨S1x64, .f32⟩
  | 46 => ⟨S50000x64, .f32⟩
  | 47 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call0_cst : Ref sig .tc := ⟨.hbm, 55, rfl⟩
abbrev main_call0_v0 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_4 : Ref sig .tc := ⟨.hbm, 62, rfl⟩
abbrev main_v34 : Ref sig .tc := ⟨.hbm, 63, rfl⟩
abbrev main_v35 : Ref sig .tc := ⟨.hbm, 64, rfl⟩
abbrev main_c_5 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_6 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_7 : Ref sig .tc := ⟨.hbm, 75, rfl⟩
abbrev main_v44 : Ref sig .tc := ⟨.hbm, 76, rfl⟩
abbrev main_cst_8 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_9 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call1_cst : Ref sig .tc := ⟨.hbm, 93, rfl⟩
abbrev main_call1_v0 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_10 : Ref sig .tc := ⟨.hbm, 100, rfl⟩
abbrev main_v64 : Ref sig .tc := ⟨.hbm, 101, rfl⟩
abbrev main_v65 : Ref sig .tc := ⟨.hbm, 102, rfl⟩
abbrev main_c_11 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_12 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_13 : Ref sig .tc := ⟨.hbm, 113, rfl⟩
abbrev main_v74 : Ref sig .tc := ⟨.hbm, 114, rfl⟩
abbrev main_cst_14 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_15 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_call2_cst : Ref sig .tc := ⟨.hbm, 131, rfl⟩
abbrev main_call2_v0 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_c_16 : Ref sig .tc := ⟨.hbm, 138, rfl⟩
abbrev main_v94 : Ref sig .tc := ⟨.hbm, 139, rfl⟩
abbrev main_v95 : Ref sig .tc := ⟨.hbm, 140, rfl⟩
abbrev main_c_17 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_18 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_19 : Ref sig .tc := ⟨.hbm, 151, rfl⟩
abbrev main_v104 : Ref sig .tc := ⟨.hbm, 152, rfl⟩
abbrev main_cst_20 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_cst_21 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_call3_cst : Ref sig .tc := ⟨.hbm, 169, rfl⟩
abbrev main_call3_v0 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x64_S50000x64_1_0_0_1_n_n_wf : DotDims.WF S50000x256 S256x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KernelRun.lean ====
/-
  The idealized kernel's run with its result named.  Every weakly fair execution of the program ends with the result
  array holding what the last boundary's contents assign to it (the fold of the five regions' write-backs and the host
  stretches between them), and with the argument arrays as launched.  This is the launch theorem over the program's
  ten segments, its final state read at the result array as well as at the arguments.
-/
import proofs.«143158_j39702677684855_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments unchanged. -/
theorem run : θ_run defs (onTc (τ := τ) (main (F := F))) ⟨m, fun _ => 0, ρ⟩ (fun r => ∀ c : Dev nD,
      r.2.mem ((c.tc : Thread nD τ).loc main_v101) = W10 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v101 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c)⟩)

end Cert.KernelIdeal.RunValue

end
-- ==== Proof.LibDot2D.lean ====
/-
  A matrix product of a [M, K] array with a [K, N] array, contracted over the one shared axis, read at an entry of the
  result.  Over the extended reals both the product into a zero accumulator and the host's general dot product are the
  plain sum  ∑ k, lhs (i, k) * rhs (k, j).  The contraction's index type has one coordinate; the sum is re-indexed by
  that coordinate.  The lemmas take the four coordinate facts of the dimension record as hypotheses, so they apply to
  any record that contracts axis 1 of the left operand against axis 0 of the right one.
-/
import Idealize.ShloMosaic.PureOps.Ideal.Laws
import Idealize.ShloMosaic.Lib.ValueIdx

noncomputable section

open scoped BigOperators

namespace Idealize.ShloMosaic.Dot2D

open Idealize.ShloMosaic Idealize.ShloMosaic.ValueIdx

variable {M K N : ℕ}

/-- The sum over the contraction index of a rows-by-columns record is the sum over `k : Fin K` of the entries
    `(i, k)` and `(k, j)`. -/
theorem sum_contr (d : DotDims ⟨2, ![M, K]⟩ ⟨2, ![K, N]⟩ ⟨2, ![M, N]⟩)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : (⟨2, ![M, K]⟩ : Shape).Idx → EReal) (rhs : (⟨2, ![K, N]⟩ : Shape).Idx → EReal) (i : Fin M) (j : Fin N) :
    (∑ q : d.contr.Idx, lhs (d.lhsIdx (ix2 i j) q) * rhs (d.rhsIdx (ix2 i j) q))
      = ∑ k : Fin K, lhs (ix2 i k) * rhs (ix2 k j) := by
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Idealize.ShloMosaic.Dot2D

end
-- ==== Proof.LayerSpec.lean ====
/-
  One graph-convolution layer and the output projection, entry by entry, over the extended reals.

  A layer takes the neighbourhood means `mean` and the node's own features `xd` (both [N, K]), two weight matrices
  `wl`, `wr` ([K, H]) and a bias row `b`, and returns  max (mean · wl + xd · wr + b, 0)  at each entry (r, q).
  The two programs add the three summands in different orders; `layerAt_comm` is the one law that joins them:
  addition of extended reals is commutative and associative, so no finiteness is needed.
-/
import Idealize.ShloMosaic.PureOps.Ideal
import Idealize.ShloMosaic.Lib.ValueIdx

noncomputable section

open scoped BigOperators

namespace Cert.LayerSpec

open Idealize.ShloMosaic Idealize.ShloMosaic.ValueIdx

/-- Entry (r, q) of a layer: the two matrix products summed first, the bias added last, then the rectifier. -/
def layerAt {N K H : ℕ} (mean xd : (⟨2, ![N, K]⟩ : Shape).Idx → EReal) (wl wr : (⟨2, ![K, H]⟩ : Shape).Idx → EReal)
    (b : Fin H → EReal) (r : Fin N) (q : Fin H) : EReal :=
  max (((∑ k : Fin K, mean (ix2 r k) * wl (ix2 k q)) + (∑ k : Fin K, xd (ix2 r k) * wr (ix2 k q))) + b q)
    (Ideal.ofBits .f32 0x00000000#32)

/-- The same entry with the bias added to the first product before the second product is added. -/
theorem layerAt_comm {N K H : ℕ} (mean xd : (⟨2, ![N, K]⟩ : Shape).Idx → EReal) (wl wr : (⟨2, ![K, H]⟩ : Shape).Idx → EReal)
    (b : Fin H → EReal) (r : Fin N) (q : Fin H) :
    max (((∑ k : Fin K, mean (ix2 r k) * wl (ix2 k q)) + b q) + (∑ k : Fin K, xd (ix2 r k) * wr (ix2 k q)))
      (Ideal.ofBits .f32 0x00000000#32) = layerAt mean xd wl wr b r q := by
  unfold layerAt
  rw [add_right_comm]

/-- Entry (r, q) of the output projection: one matrix product plus the bias. -/
def projAt {N K H : ℕ} (x : (⟨2, ![N, K]⟩ : Shape).Idx → EReal) (w : (⟨2, ![K, H]⟩ : Shape).Idx → EReal)
    (b : Fin H → EReal) (r : Fin N) (q : Fin H) : EReal :=
  (∑ k : Fin K, x (ix2 r k) * w (ix2 k q)) + b q

end Cert.LayerSpec

end
-- ==== Proof.Region0.lean ====
import proofs.«143158_j39702677684855_1_alg».proof.Proof.Gen.KernelIdeal.Frame
import proofs.«143158_j39702677684855_1_alg».proof.Proof.LibDot2D
import proofs.«143158_j39702677684855_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.ShloMosaic.Pipeline (Dat Cfg Window)

open Cert.LayerSpec

/-! ## The block product at an entry -/

theorem d_l0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem d_l1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem d_r0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem d_r1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A 2000-row block times a weight matrix, into a zero accumulator, at entry (p, q). -/
theorem blockProduct_at (a : S2000x128.Idx → EReal) (b : S128x256.Idx → EReal) (p : Fin 2000) (q : Fin 256) :
    FloatOps.matmul (F := Ideal) (φ₁ := .bf16) (φ₂ := .bf16) dot_S2000x128_S128x256_S2000x256_1_0_0_1_n_n none a b (constant S2000x256 .f32 0x00000000#32) (ix2 p q)
      = ∑ k : Fin 128, a (ix2 p k) * b (ix2 k q) :=
  (Ideal.matmul_constant_zero_apply (φ₁ := .bf16) (φ₂ := .bf16) dot_S2000x128_S128x256_S2000x256_1_0_0_1_n_n none a b (ix2 p q)).trans
    (Dot2D.sum_contr dot_S2000x128_S128x256_S2000x256_1_0_0_1_n_n rfl rfl d_l0 d_l1 d_r0 d_r1 a b p q)

/-- The bias row broadcast down the block, at entry (p, q). -/
theorem biasRow_at (x4 : S1x256.Idx → EReal) (h : S1x256.Broadcasts S2000x256) (p : Fin 2000) (q : Fin 256) :
    broadcastTo S2000x256 x4 h (ix2 p q) = x4 (ix2 0 q) :=
  broadcastTo_apply x4 h (ix2 p q) (ix2 0 q) (fun a => by
    match a with
    | ⟨0, _⟩ => rfl
    | ⟨1, _⟩ => rfl)

/-- What the body stores, at entry (p, q) of the block: the layer's entry of the loaded blocks. -/
theorem payload_at (x0 x1 : Vec Ideal S2000x128 .f32) (x2 x3 : Vec Ideal S128x256 .f32) (x4 : Vec Ideal S1x256 .f32)
    (p : Fin 2000) (q : Fin 256) :
    k0_pay1 (F := Ideal) x0 x1 x2 x3 x4 (ix2 p q) = layerAt x0 x1 x2 x3 (fun q => x4 (ix2 0 q)) p q := by
  unfold k0_pay1 layerAt
  simp only [shapeCast_self]
  show max ((FloatOps.matmul (F := Ideal) (φ₁ := .bf16) (φ₂ := .bf16) dot_S2000x128_S128x256_S2000x256_1_0_0_1_n_n none x0 x2 (constant S2000x256 .f32 0x00000000#32) (ix2 p q)
      + FloatOps.matmul (F := Ideal) (φ₁ := .bf16) (φ₂ := .bf16) dot_S2000x128_S128x256_S2000x256_1_0_0_1_n_n none x1 x3 (constant S2000x256 .f32 0x00000000#32) (ix2 p q))
      + broadcastTo S2000x256 x4 broadcasts_S1x256_S2000x256 (ix2 p q)) (Ideal.ofBits .f32 0x00000000#32) = _
  rw [blockProduct_at, blockProduct_at, biasRow_at]

/-! ## From blocks to the array

  Grid point `t` stages rows 2000·t … 2000·t + 1999 of the means and of the node features, the whole weight matrices and
  the bias row, and writes back the same rows of the result.  So the block a point writes is that block of ONE
  whole-array function: the layer of the arrays as the region finds them.  The 25 blocks tile the 50000 rows. -/

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds, as a whole array. -/
def layerArr (c : Dev nD) : S50000x256.Idx → EReal := fun i =>
  layerAt (N := 50000) (K := 128) (H := 256) (V c (Pipeline.arrRef spec0 0)) (V c (Pipeline.arrRef spec0 1))
    (V c (Pipeline.arrRef spec0 2)) (V c (Pipeline.arrRef spec0 3)) (fun q => V c (Pipeline.arrRef spec0 4) (ix2 0 q)) (i 0) (i 1)

/-- The printed index maps over the grid: the row blocks move together, everything else sits at block 0. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 24 :=
  (by decide +kernel : ∀ t : Fin grid0.N, _)

/-- Every row block is some point's. -/
theorem idx_onto : ∀ (b : Fin 25), ∃ t : Fin cfg0.N, win0_5.index t = ![b.val, 0] :=
  (by decide +kernel : ∀ (b : Fin 25), ∃ t : Fin grid0.N, win0_5.index t = ![b.val, 0])

/-- What point `t` writes back is block `t` of the layer. -/
theorem flushed_eq (c : Dev nD) (t : Fin cfg0.N) :
    (dat0 V c).flushed 5 t = ((cfg0.win 5).blk t).view.read (Elt Ideal) (layerArr V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  obtain ⟨e00, e01, e10, e11, e20, e21, e30, e31, e40, e41, e51, e50⟩ := idx_facts t
  funext j
  obtain ⟨p, q, rfl⟩ : ∃ (p : Fin 2000) (q : Fin 256), j = ix2 p q := ⟨j 0, j 1, eq_ix2 j⟩
  have hp : p.val < 2000 := p.isLt
  have hq : q.val < 256 := q.isLt
  let r : Fin 50000 := ⟨win0_5.index t (0 : Fin 2) * 2000 + p.val, by omega⟩
  have h5 : ((cfg0.win 5).blk t).view.emb (ix2 p q) = ix2 r q := by
    funext a; apply Fin.ext
    match a with
    | ⟨0, _⟩ => show win0_5.index t (0 : Fin 2) * 2000 + 1 * p.val = win0_5.index t (0 : Fin 2) * 2000 + p.val; omega
    | ⟨1, _⟩ => show win0_5.index t (1 : Fin 2) * 256 + 1 * q.val = q.val; omega
  have h0 : ∀ k : Fin 128, ((cfg0.win 0).blk t).view.emb (ix2 p k) = ix2 r k := fun k => by
    have hk : k.val < 128 := k.isLt
    funext a; apply Fin.ext
    match a with
    | ⟨0, _⟩ => show win0_0.index t (0 : Fin 2) * 2000 + 1 * p.val = win0_5.index t (0 : Fin 2) * 2000 + p.val; omega
    | ⟨1, _⟩ => show win0_0.index t (1 : Fin 2) * 128 + 1 * k.val = k.val; omega
  have h1 : ∀ k : Fin 128, ((cfg0.win 1).blk t).view.emb (ix2 p k) = ix2 r k := fun k => by
    have hk : k.val < 128 := k.isLt
    funext a; apply Fin.ext
    match a with
    | ⟨0, _⟩ => show win0_1.index t (0 : Fin 2) * 2000 + 1 * p.val = win0_5.index t (0 : Fin 2) * 2000 + p.val; omega
    | ⟨1, _⟩ => show win0_1.index t (1 : Fin 2) * 128 + 1 * k.val = k.val; omega
  have h2 : ∀ k : Fin 128, ((cfg0.win 2).blk t).view.emb (ix2 k q) = ix2 k q := fun k => by
    have hk : k.val < 128 := k.isLt
    funext a; apply Fin.ext
    match a with
    | ⟨0, _⟩ => show win0_2.index t (0 : Fin 2) * 128 + 1 * k.val = k.val; omega
    | ⟨1, _⟩ => show win0_2.index t (1 : Fin 2) * 256 + 1 * q.val = q.val; omega
  have h3 : ∀ k : Fin 128, ((cfg0.win 3).blk t).view.emb (ix2 k q) = ix2 k q := fun k => by
    have hk : k.val < 128 := k.isLt
    funext a; apply Fin.ext
    match a with
    | ⟨0, _⟩ => show win0_3.index t (0 : Fin 2) * 128 + 1 * k.val = k.val; omega
    | ⟨1, _⟩ => show win0_3.index t (1 : Fin 2) * 256 + 1 * q.val = q.val; omega
  have h4 : ((cfg0.win 4).blk t).view.emb (ix2 (0 : Fin 1) q) = ix2 (0 : Fin 1) q := by
    funext a; apply Fin.ext
    match a with
    | ⟨0, _⟩ => show win0_4.index t (0 : Fin 2) * 1 + 1 * 0 = 0; omega
    | ⟨1, _⟩ => show win0_4.index t (1 : Fin 2) * 256 + 1 * q.val = q.val; omega
  refine (payload_at (iblk0 V c 0 t) (iblk0 V c 1 t) (iblk0 V c 2 t) (iblk0 V c 3 t) (iblk0 V c 4 t) p q).trans ?_
  show _ = layerArr V c (((cfg0.win 5).blk t).view.emb (ix2 p q))
  rw [h5]
  unfold layerArr layerAt
  refine congrArg₂ max (congrArg₂ (· + ·) (congrArg₂ (· + ·) (Finset.sum_congr rfl fun k _ => ?_) (Finset.sum_congr rfl fun k _ => ?_)) ?_) rfl
  · exact congrArg₂ (· * ·) (congrArg (V c (Pipeline.arrRef spec0 0)) (h0 k)) (congrArg (V c (Pipeline.arrRef spec0 2)) (h2 k))
  · exact congrArg₂ (· * ·) (congrArg (V c (Pipeline.arrRef spec0 1)) (h1 k)) (congrArg (V c (Pipeline.arrRef spec0 3)) (h3 k))
  · exact congrArg (V c (Pipeline.arrRef spec0 4)) h4

/-- An index of the array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v24).slice (win0_5.rect t)).set ↔ _
  rw [View.set_slice_whole, Rect.mem_set_unit]
  exact Iff.rfl

/-- Every row of the array is in some point's block: row `r` is in block `r / 2000`. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- The result array after the region: the layer of the arrays the region found. -/
theorem final (c : Dev nD) : (dat0 V c).arrAt 5 cfg0.N = layerArr V c :=
  (dat0 V c).arrAt_eq_of_cover 5 (layerArr V c) (fun t _ => flushed_eq V c t) cover

end Cert.KernelIdeal.Region0

end
-- ==== Proof.Region1.lean ====
import proofs.«143158_j39702677684855_1_alg».proof.Proof.Gen.KernelIdeal.Frame
import proofs.«143158_j39702677684855_1_alg».proof.Proof.LibDot2D
import proofs.«143158_j39702677684855_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.ShloMosaic.Pipeline (Dat Cfg Window)

open Cert.LayerSpec

/-! ## The block product at an entry -/

theorem d_l0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem d_l1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem d_r0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem d_r1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A 2000-row block times a weight matrix, into a zero accumulator, at entry (p, q). -/
theorem blockProduct_at (a : S2000x128.Idx → EReal) (b : S128x256.Idx → EReal) (p : Fin 2000) (q : Fin 256) :
    FloatOps.matmul (F := Ideal) (φ₁ := .bf16) (φ₂ := .bf16) dot_S2000x128_S128x256_S2000x256_1_0_0_1_n_n none a b (constant S2000x256 .f32 0x00000000#32) (ix2 p q)
      = ∑ k : Fin 128, a (ix2 p k) * b (ix2 k q) :=
  (Ideal.matmul_constant_zero_apply (φ₁ := .bf16) (φ₂ := .bf16) dot_S2000x128_S128x256_S2000x256_1_0_0_1_n_n none a b (ix2 p q)).trans
    (Dot2D.sum_contr dot_S2000x128_S128x256_S2000x256_1_0_0_1_n_n rfl rfl d_l0 d_l1 d_r0 d_r1 a b p q)

/-- The bias row broadcast down the block, at entry (p, q). -/
theorem biasRow_at (x4 : S1x256.Idx → EReal) (h : S1x256.Broadcasts S2000x256) (p : Fin 2000) (q : Fin 256) :
    broadcastTo S2000x256 x4 h (ix2 p q) = x4 (ix2 0 q) :=
  broadcastTo_apply x4 h (ix2 p q) (ix2 0 q) (fun a => by
    match a with
    | ⟨0, _⟩ => rfl
    | ⟨1, _⟩ => rfl)

/-- What the body stores, at entry (p, q) of the block: the layer's entry of the loaded blocks. -/
theorem payload_at (x0 x1 : Vec Ideal S2000x128 .f32) (x2 x3 : Vec Ideal S128x256 .f32) (x4 : Vec Ideal S1x256 .f32)
    (p : Fin 2000) (q : Fin 256) :
    k1_pay1 (F := Ideal) x0 x1 x2 x3 x4 (ix2 p q) = layerAt x0 x1 x2 x3 (fun q => x4 (ix2 0 q)) p q := by
  unfold k1_pay1 layerAt
  simp only [shapeCast_self]
  show max ((FloatOps.matmul (F := Ideal) (φ₁ := .bf16) (φ₂ := .bf16) dot_S2000x128_S128x256_S2000x256_1_0_0_1_n_n none x0 x2 (constant S2000x256 .f32 0x00000000#32) (ix2 p q)
      + FloatOps.matmul (F := Ideal) (φ₁ := .bf16) (φ₂ := .bf16) dot_S2000x128_S128x256_S2000x256_1_0_0_1_n_n none x1 x3 (constant S2000x256 .f32 0x00000000#32) (ix2 p q))
      + broadcastTo S2000x256 x4 broadcasts_S1x256_S2000x256 (ix2 p q)) (Ideal.ofBits .f32 0x00000000#32) = _
  rw [blockProduct_at, blockProduct_at, biasRow_at]

/-! ## From blocks to the array

  Grid point `t` stages rows 2000·t … 2000·t + 1999 of the means and of the node features, the whole weight matrices and
  the bias row, and writes back the same rows of the result.  So the block a point writes is that block of ONE
  whole-array function: the layer of the arrays as the region finds them.  The 25 blocks tile the 50000 rows. -/

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds, as a whole array. -/
def layerArr (c : Dev nD) : S50000x256.Idx → EReal := fun i =>
  layerAt (N := 50000) (K := 128) (H := 256) (V c (Pipeline.arrRef spec1 0)) (V c (Pipeline.arrRef spec1 1))
    (V c (Pipeline.arrRef spec1 2)) (V c (Pipeline.arrRef spec1 3)) (fun q => V c (Pipeline.arrRef spec1 4) (ix2 0 q)) (i 0) (i 1)

/-- The printed index maps over the grid: the row blocks move together, everything else sits at block 0. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 24 :=
  (by decide +kernel : ∀ t : Fin grid1.N, _)

/-- Every row block is some point's. -/
theorem idx_onto : ∀ (b : Fin 25), ∃ t : Fin cfg1.N, win1_5.index t = ![b.val, 0] :=
  (by decide +kernel : ∀ (b : Fin 25), ∃ t : Fin grid1.N, win1_5.index t = ![b.val, 0])

/-- What point `t` writes back is block `t` of the layer. -/
theorem flushed_eq (c : Dev nD) (t : Fin cfg1.N) :
    (dat1 V c).flushed 5 t = ((cfg1.win 5).blk t).view.read (Elt Ideal) (layerArr V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x256) hz, View.ld_unit_zero (S := S1x256) hz]
  obtain ⟨e00, e01, e10, e11, e20, e21, e30, e31, e40, e41, e51, e50⟩ := idx_facts t
  funext j
  obtain ⟨p, q, rfl⟩ : ∃ (p : Fin 2000) (q : Fin 256), j = ix2 p q := ⟨j 0, j 1, eq_ix2 j⟩
  have hp : p.val < 2000 := p.isLt
  have hq : q.val < 256 := q.isLt
  let r : Fin 50000 := ⟨win1_5.index t (0 : Fin 2) * 2000 + p.val, by omega⟩
  have h5 : ((cfg1.win 5).blk t).view.emb (ix2 p q) = ix2 r q := by
    funext a; apply Fin.ext
    match a with
    | ⟨0, _⟩ => show win1_5.index t (0 : Fin 2) * 2000 + 1 * p.val = win1_5.index t (0 : Fin 2) * 2000 + p.val; omega
    | ⟨1, _⟩ => show win1_5.index t (1 : Fin 2) * 256 + 1 * q.val = q.val; omega
  have h0 : ∀ k : Fin 128, ((cfg1.win 0).blk t).view.emb (ix2 p k) = ix2 r k := fun k => by
    have hk : k.val < 128 := k.isLt
    funext a; apply Fin.ext
    match a with
    | ⟨0, _⟩ => show win1_0.index t (0 : Fin 2) * 2000 + 1 * p.val = win1_5.index t (0 : Fin 2) * 2000 + p.val; omega
    | ⟨1, _⟩ => show win1_0.index t (1 : Fin 2) * 128 + 1 * k.val = k.val; omega
  have h1 : ∀ k : Fin 128, ((cfg1.win 1).blk t).view.emb (ix2 p k) = ix2 r k := fun k => by
    have hk : k.val < 128 := k.isLt
    funext a; apply Fin.ext
    match a with
    | ⟨0, _⟩ => show win1_1.index t (0 : Fin 2) * 2000 + 1 * p.val = win1_5.index t (0 : Fin 2) * 2000 + p.val; omega
    | ⟨1, _⟩ => show win1_1.index t (1 : Fin 2) * 128 + 1 * k.val = k.val; omega
  have h2 : ∀ k : Fin 128, ((cfg1.win 2).blk t).view.emb (ix2 k q) = ix2 k q := fun k => by
    have hk : k.val < 128 := k.isLt
    funext a; apply Fin.ext
    match a with
    | ⟨0, _⟩ => show win1_2.index t (0 : Fin 2) * 128 + 1 * k.val = k.val; omega
    | ⟨1, _⟩ => show win1_2.index t (1 : Fin 2) * 256 + 1 * q.val = q.val; omega
  have h3 : ∀ k : Fin 128, ((cfg1.win 3).blk t).view.emb (ix2 k q) = ix2 k q := fun k => by
    have hk : k.val < 128 := k.isLt
    funext a; apply Fin.ext
    match a with
    | ⟨0, _⟩ => show win1_3.index t (0 : Fin 2) * 128 + 1 * k.val = k.val; omega
    | ⟨1, _⟩ => show win1_3.index t (1 : Fin 2) * 256 + 1 * q.val = q.val; omega
  have h4 : ((cfg1.win 4).blk t).view.emb (ix2 (0 : Fin 1) q) = ix2 (0 : Fin 1) q := by
    funext a; apply Fin.ext
    match a with
    | ⟨0, _⟩ => show win1_4.index t (0 : Fin 2) * 1 + 1 * 0 = 0; omega
    | ⟨1, _⟩ => show win1_4.index t (1 : Fin 2) * 256 + 1 * q.val = q.val; omega
  refine (payload_at (iblk1 V c 0 t) (iblk1 V c 1 t) (iblk1 V c 2 t) (iblk1 V c 3 t) (iblk1 V c 4 t) p q).trans ?_
  show _ = layerArr V c (((cfg1.win 5).blk t).view.emb (ix2 p q))
  rw [h5]
  unfold layerArr layerAt
  refine congrArg₂ max (congrArg₂ (· + ·) (congrArg₂ (· + ·) (Finset.sum_congr rfl fun k _ => ?_) (Finset.sum_congr rfl fun k _ => ?_)) ?_) rfl
  · exact congrArg₂ (· * ·) (congrArg (V c (Pipeline.arrRef spec1 0)) (h0 k)) (congrArg (V c (Pipeline.arrRef spec1 2)) (h2 k))
  · exact congrArg₂ (· * ·) (congrArg (V c (Pipeline.arrRef spec1 1)) (h1 k)) (congrArg (V c (Pipeline.arrRef spec1 3)) (h3 k))
  · exact congrArg (V c (Pipeline.arrRef spec1 4)) h4

/-- An index of the array is in point `t`'s block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v49).slice (win1_5.rect t)).set ↔ _
  rw [View.set_slice_whole, Rect.mem_set_unit]
  exact Iff.rfl

/-- Every row of the array is in some point's block: row `r` is in block `r / 2000`. -/
theorem cover (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- The result array after the region: the layer of the arrays the region found. -/
theorem final (c : Dev nD) : (dat1 V c).arrAt 5 cfg1.N = layerArr V c :=
  (dat1 V c).arrAt_eq_of_cover 5 (layerArr V c) (fun t _ => flushed_eq V c t) cover

end Cert.KernelIdeal.Region1

end
-- ==== Proof.Region2.lean ====
import proofs.«143158_j39702677684855_1_alg».proof.Proof.Gen.KernelIdeal.Frame
import proofs.«143158_j39702677684855_1_alg».proof.Proof.LibDot2D
import proofs.«143158_j39702677684855_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.ShloMosaic.Pipeline (Dat Cfg Window)

open Cert.LayerSpec

/-! ## The block product at an entry -/

theorem d_l0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem d_l1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem d_r0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem d_r1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A 2000-row block times a weight matrix, into a zero accumulator, at entry (p, q). -/
theorem blockProduct_at (a : S2000x256.Idx → EReal) (b : S256x256.Idx → EReal) (p : Fin 2000) (q : Fin 256) :
    FloatOps.matmul (F := Ideal) (φ₁ := .bf16) (φ₂ := .bf16) dot_S2000x256_S256x256_S2000x256_1_0_0_1_n_n none a b (constant S2000x256 .f32 0x00000000#32) (ix2 p q)
      = ∑ k : Fin 256, a (ix2 p k) * b (ix2 k q) :=
  (Ideal.matmul_constant_zero_apply (φ₁ := .bf16) (φ₂ := .bf16) dot_S2000x256_S256x256_S2000x256_1_0_0_1_n_n none a b (ix2 p q)).trans
    (Dot2D.sum_contr dot_S2000x256_S256x256_S2000x256_1_0_0_1_n_n rfl rfl d_l0 d_l1 d_r0 d_r1 a b p q)

/-- The bias row broadcast down the block, at entry (p, q). -/
theorem biasRow_at (x4 : S1x256.Idx → EReal) (h : S1x256.Broadcasts S2000x256) (p : Fin 2000) (q : Fin 256) :
    broadcastTo S2000x256 x4 h (ix2 p q) = x4 (ix2 0 q) :=
  broadcastTo_apply x4 h (ix2 p q) (ix2 0 q) (fun a => by
    match a with
    | ⟨0, _⟩ => rfl
    | ⟨1, _⟩ => rfl)

/-- What the body stores, at entry (p, q) of the block: the layer's entry of the loaded blocks. -/
theorem payload_at (x0 x1 : Vec Ideal S2000x256 .f32) (x2 x3 : Vec Ideal S256x256 .f32) (x4 : Vec Ideal S1x256 .f32)
    (p : Fin 2000) (q : Fin 256) :
    k2_pay1 (F := Ideal) x0 x1 x2 x3 x4 (ix2 p q) = layerAt x0 x1 x2 x3 (fun q => x4 (ix2 0 q)) p q := by
  unfold k2_pay1 layerAt
  simp only [shapeCast_self]
  show max ((FloatOps.matmul (F := Ideal) (φ₁ := .bf16) (φ₂ := .bf16) dot_S2000x256_S256x256_S2000x256_1_0_0_1_n_n none x0 x2 (constant S2000x256 .f32 0x00000000#32) (ix2 p q)
      + FloatOps.matmul (F := Ideal) (φ₁ := .bf16) (φ₂ := .bf16) dot_S2000x256_S256x256_S2000x256_1_0_0_1_n_n none x1 x3 (constant S2000x256 .f32 0x00000000#32) (ix2 p q))
      + broadcastTo S2000x256 x4 broadcasts_S1x256_S2000x256 (ix2 p q)) (Ideal.ofBits .f32 0x00000000#32) = _
  rw [blockProduct_at, blockProduct_at, biasRow_at]

/-! ## From blocks to the array

  Grid point `t` stages rows 2000·t … 2000·t + 1999 of the means and of the node features, the whole weight matrices and
  the bias row, and writes back the same rows of the result.  So the block a point writes is that block of ONE
  whole-array function: the layer of the arrays as the region finds them.  The 25 blocks tile the 50000 rows. -/

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds, as a whole array. -/
def layerArr (c : Dev nD) : S50000x256.Idx → EReal := fun i =>
  layerAt (N := 50000) (K := 256) (H := 256) (V c (Pipeline.arrRef spec2 0)) (V c (Pipeline.arrRef spec2 1))
    (V c (Pipeline.arrRef spec2 2)) (V c (Pipeline.arrRef spec2 3)) (fun q => V c (Pipeline.arrRef spec2 4) (ix2 0 q)) (i 0) (i 1)

/-- The printed index maps over the grid: the row blocks move together, everything else sits at block 0. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 24 :=
  (by decide +kernel : ∀ t : Fin grid2.N, _)

/-- Every row block is some point's. -/
theorem idx_onto : ∀ (b : Fin 25), ∃ t : Fin cfg2.N, win2_5.index t = ![b.val, 0] :=
  (by decide +kernel : ∀ (b : Fin 25), ∃ t : Fin grid2.N, win2_5.index t = ![b.val, 0])

/-- What point `t` writes back is block `t` of the layer. -/
theorem flushed_eq (c : Dev nD) (t : Fin cfg2.N) :
    (dat2 V c).flushed 5 t = ((cfg2.win 5).blk t).view.read (Elt Ideal) (layerArr V c) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x256) hz, View.ld_unit_zero (S := S1x256) hz]
  obtain ⟨e00, e01, e10, e11, e20, e21, e30, e31, e40, e41, e51, e50⟩ := idx_facts t
  funext j
  obtain ⟨p, q, rfl⟩ : ∃ (p : Fin 2000) (q : Fin 256), j = ix2 p q := ⟨j 0, j 1, eq_ix2 j⟩
  have hp : p.val < 2000 := p.isLt
  have hq : q.val < 256 := q.isLt
  let r : Fin 50000 := ⟨win2_5.index t (0 : Fin 2) * 2000 + p.val, by omega⟩
  have h5 : ((cfg2.win 5).blk t).view.emb (ix2 p q) = ix2 r q := by
    funext a; apply Fin.ext
    match a with
    | ⟨0, _⟩ => show win2_5.index t (0 : Fin 2) * 2000 + 1 * p.val = win2_5.index t (0 : Fin 2) * 2000 + p.val; omega
    | ⟨1, _⟩ => show win2_5.index t (1 : Fin 2) * 256 + 1 * q.val = q.val; omega
  have h0 : ∀ k : Fin 256, ((cfg2.win 0).blk t).view.emb (ix2 p k) = ix2 r k := fun k => by
    have hk : k.val < 256 := k.isLt
    funext a; apply Fin.ext
    match a with
    | ⟨0, _⟩ => show win2_0.index t (0 : Fin 2) * 2000 + 1 * p.val = win2_5.index t (0 : Fin 2) * 2000 + p.val; omega
    | ⟨1, _⟩ => show win2_0.index t (1 : Fin 2) * 256 + 1 * k.val = k.val; omega
  have h1 : ∀ k : Fin 256, ((cfg2.win 1).blk t).view.emb (ix2 p k) = ix2 r k := fun k => by
    have hk : k.val < 256 := k.isLt
    funext a; apply Fin.ext
    match a with
    | ⟨0, _⟩ => show win2_1.index t (0 : Fin 2) * 2000 + 1 * p.val = win2_5.index t (0 : Fin 2) * 2000 + p.val; omega
    | ⟨1, _⟩ => show win2_1.index t (1 : Fin 2) * 256 + 1 * k.val = k.val; omega
  have h2 : ∀ k : Fin 256, ((cfg2.win 2).blk t).view.emb (ix2 k q) = ix2 k q := fun k => by
    have hk : k.val < 256 := k.isLt
    funext a; apply Fin.ext
    match a with
    | ⟨0, _⟩ => show win2_2.index t (0 : Fin 2) * 256 + 1 * k.val = k.val; omega
    | ⟨1, _⟩ => show win2_2.index t (1 : Fin 2) * 256 + 1 * q.val = q.val; omega
  have h3 : ∀ k : Fin 256, ((cfg2.win 3).blk t).view.emb (ix2 k q) = ix2 k q := fun k => by
    have hk : k.val < 256 := k.isLt
    funext a; apply Fin.ext
    match a with
    | ⟨0, _⟩ => show win2_3.index t (0 : Fin 2) * 256 + 1 * k.val = k.val; omega
    | ⟨1, _⟩ => show win2_3.index t (1 : Fin 2) * 256 + 1 * q.val = q.val; omega
  have h4 : ((cfg2.win 4).blk t).view.emb (ix2 (0 : Fin 1) q) = ix2 (0 : Fin 1) q := by
    funext a; apply Fin.ext
    match a with
    | ⟨0, _⟩ => show win2_4.index t (0 : Fin 2) * 1 + 1 * 0 = 0; omega
    | ⟨1, _⟩ => show win2_4.index t (1 : Fin 2) * 256 + 1 * q.val = q.val; omega
  refine (payload_at (iblk2 V c 0 t) (iblk2 V c 1 t) (iblk2 V c 2 t) (iblk2 V c 3 t) (iblk2 V c 4 t) p q).trans ?_
  show _ = layerArr V c (((cfg2.win 5).blk t).view.emb (ix2 p q))
  rw [h5]
  unfold layerArr layerAt
  refine congrArg₂ max (congrArg₂ (· + ·) (congrArg₂ (· + ·) (Finset.sum_congr rfl fun k _ => ?_) (Finset.sum_congr rfl fun k _ => ?_)) ?_) rfl
  · exact congrArg₂ (· * ·) (congrArg (V c (Pipeline.arrRef spec2 0)) (h0 k)) (congrArg (V c (Pipeline.arrRef spec2 2)) (h2 k))
  · exact congrArg₂ (· * ·) (congrArg (V c (Pipeline.arrRef spec2 1)) (h1 k)) (congrArg (V c (Pipeline.arrRef spec2 3)) (h3 k))
  · exact congrArg (V c (Pipeline.arrRef spec2 4)) h4

/-- An index of the array is in point `t`'s block iff each coordinate is in the block's range on its axis. -/
theorem mem_blk (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v74).slice (win2_5.rect t)).set ↔ _
  rw [View.set_slice_whole, Rect.mem_set_unit]
  exact Iff.rfl

/-- Every row of the array is in some point's block: row `r` is in block `r / 2000`. -/
theorem cover (i : S50000x256.Idx) : ∃ t : Fin cfg2.N, (cfg2.win 5).flush t = true ∧ i ∈ ((cfg2.win 5).blk t).view.set := by
  have hi0 : (i 0).val < 50000 := (i 0).isLt
  have hi1 : (i 1).val < 256 := (i 1).isLt
  obtain ⟨t, ht⟩ := idx_onto ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- The result array after the region: the layer of the arrays the region found. -/
theorem final (c : Dev nD) : (dat2 V c).arrAt 5 cfg2.N = layerArr V c :=
  (dat2 V c).arrAt_eq_of_cover 5 (layerArr V c) (fun t _ => flushed_eq V c t) cover

end Cert.KernelIdeal.Region2

end
-- ==== Proof.Region3.lean ====
import proofs.«143158_j39702677684855_1_alg».proof.Proof.Gen.KernelIdeal.Frame
import proofs.«143158_j39702677684855_1_alg».proof.Proof.LibDot2D
import proofs.«143158_j39702677684855_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx
open Idealize.ShloMosaic.Pipeline (Dat Cfg Window)

open Cert.LayerSpec

/-! ## The block product at an entry -/

theorem d_l0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem d_l1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem d_r0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem d_r1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A 2000-row block times a weight matrix, into a zero accumulator, at entry (p, q). -/
theorem blockProduct_at (a : S2000x256.Idx → EReal) (b : S256x256.Idx → EReal) (p : Fin 2000) (q : Fin 256) :
    FloatOps.matmul (F := Ideal) (φ₁ := .bf16) (φ₂ := .bf16) dot_S2000x256_S256x256_S2000x256_1_0_0_1_n_n none a b (constant S2000x256 .f32 0x00000000#32) (ix2 p q)
      = ∑ k : Fin 256, a (ix2 p k) * b (ix2 k q) :=
  (Ideal.matmul_constant_zero_apply (φ₁ := .bf16) (φ₂ := .bf16) dot_S2000x256_S256x256_S2000x256_1_0_0_1_n_n none a b (ix2 p q)).trans
    (Dot2D.sum_contr dot_S2000x256_S256x256_S2000x256_1_0_0_1_n_n rfl rfl d_l0 d_l1 d_r0 d_r1 a b p q)

/-- The bias row broadcast down the block, at entry (p, q). -/
theorem biasRow_at (x4 : S1x256.Idx → EReal) (h : S1x256.Broadcasts S2000x256) (p : Fin 2000) (q : Fin 256) :
    broadcastTo S2000x256 x4 h (ix2 p q) = x4 (ix2 0 q) :=
  broadcastTo_apply x4 h (ix2 p q) (ix2 0 q) (fun a => by
    match a with
    | ⟨0, _⟩ => rfl
    | ⟨1, _⟩ => rfl)

/-- What the body stores, at entry (p, q) of the block: the layer's entry of the loaded blocks. -/
theorem payload_at (x0 x1 : Vec Ideal S2000x256 .f32) (x2 x3 : Vec Ideal S256x256 .f32) (x4 : Vec Ideal S1x256 .f32)
    (p : Fin 2000) (q : Fin 256) :
    k3_pay1 (F := Ideal) x0 x1 x2 x3 x4 (ix2 p q) = layerAt x0 x1 x2 x3 (fun q => x4 (ix2 0 q)) p q := by
  unfold k3_pay1 layerAt
  simp only [shapeCast_self]
  show max ((FloatOps.matmul (F := Ideal) (φ₁ := .bf16) (φ₂ := .bf16) dot_S2000x256_S256x256_S2000x256_1_0_0_1_n_n none x0 x2 (constant S2000x256 .f32 0x00000000#32) (ix2 p q)
      + FloatOps.matmul (F := Ideal) (φ₁ := .bf16) (φ₂ := .bf16) dot_S2000x256_S256x256_S2000x256_1_0_0_1_n_n none x1 x3 (constant S2000x256 .f32 0x00000000#32) (ix2 p q))
      + broadcastTo S2000x256 x4 broadcasts_S1x256_S2000x256 (ix2 p q)) (Ideal.ofBits .f32 0x00000000#32) = _
  rw [blockProduct_at, blockProduct_at, biasRow_at]

/-! ## From blocks to the array

  Grid point `t` stages rows 2000·t … 2000·t + 1999 of the means and of the node features, the whole weight matrices and
  the bias row, and writes back the same rows of the result.  So the block a point writes is that block of ONE
  whole-array function: the layer of the arrays as the region finds them.  The 25 blocks tile the 50000 rows. -/

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds, as a whole array. -/
def layerArr (c : Dev nD) : S50000x256.Idx → EReal := fun i =>
  layerAt (N := 50000) (K := 256) (H := 256) (V c (Pipeline.arrRef spec3 0)) (V c (Pipeline.arrRef spec3 1))
    (V c (Pipeline.arrRef spec3 2)) (V c (Pipeline.arrRef spec3 3)) (fun q => V c (Pipeline.arrRef spec3 4) (ix2 0 q)) (i 0) (i 1)

/-- The printed index maps over the grid: the row blocks move together, everything else sits at block 0. -/
theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) ≤ 24 :=
  (by decide +kernel : ∀ t : Fin grid3.N, _)

/-- Every row block is some point's. -/
theorem idx_onto : ∀ (b : Fin 25), ∃ t : Fin cfg3.N, win3_5.index t = ![b.val, 0] :=
  (by decide +kernel : ∀ (b : Fin 25), ∃ t : Fin grid3.N, win3_5.index t = ![b.val, 0])

/-- What point `t` writes back is block `t` of the layer. -/
theorem flushed_eq (c : Dev nD) (t : Fin cfg3.N) :
    (dat3 V c).flushed 5 t = ((cfg3.win 5).blk t).view.read (Elt Ideal) (layerArr V c) := by
  show (cfg3.win 5).cut (grid3.coords t) ((dat3 V c).after 5 t) = _
  rw [after3_5]
  unfold out3_5
  rw [View.canon_unit_zero hz]
  simp only [View.ld_unit_zero (S := S2000x256) hz, View.ld_unit_zero (S := S256x256) hz, View.ld_unit_zero (S := S1x256) hz]
  obtain ⟨e00, e01, e10, e11, e20, e21, e30, e31, e40, e41, e51, e50⟩ := idx_facts t
  funext j
  obtain ⟨p, q, rfl⟩ : ∃ (p : Fin 2000) (q : Fin 256), j = ix2 p q := ⟨j 0, j 1, eq_ix2 j⟩
  have hp : p.val < 2000 := p.isLt
  have hq : q.val < 256 := q.isLt
  let r : Fin 50000 := ⟨win3_5.index t (0 : Fin 2) * 2000 + p.val, by omega⟩
  have h5 : ((cfg3.win 5).blk t).view.emb (ix2 p q) = ix2 r q := by
    funext a; apply Fin.ext
    match a with
    | ⟨0, _⟩ => show win3_5.index t (0 : Fin 2) * 2000 + 1 * p.val = win3_5.index t (0 : Fin 2) * 2000 + p.val; omega
    | ⟨1, _⟩ => show win3_5.index t (1 : Fin 2) * 256 + 1 * q.val = q.val; omega
  have h0 : ∀ k : Fin 256, ((cfg3.win 0).blk t).view.emb (ix2 p k) = ix2 r k := fun k => by
    have hk : k.val < 256 := k.isLt
    funext a; apply Fin.ext
    match a with
    | ⟨0, _⟩ => show win3_0.index t (0 : Fin 2) * 2000 + 1 * p.val = win3_5.index t (0 : Fin 2) * 2000 + p.val; omega
    | ⟨1, _⟩ => show win3_0.index t (1 : Fin 2) * 256 + 1 * k.val = k.val; omega
  have h1 : ∀ k : Fin 256, ((cfg3.win 1).blk t).view.emb (ix2 p k) = ix2 r k := fun k => by
    have hk : k.val < 256 := k.isLt
    funext a; apply Fin.ext
    match a with
    | ⟨0, _⟩ => show win3_1.index t (0 : Fin 2) * 2000 + 1 * p.val = win3_5.index t (0 : Fin 2) * 2000 + p.val; omega
    | ⟨1, _⟩ => show win3_1.index t (1 : Fin 2) * 256 + 1 * k.val = k.val; omega
  have h2 : ∀ k : Fin 256, ((cfg3.win 2).blk t).view.emb (ix2 k q) = ix2 k q := fun k => by
    have hk : k.val < 256 := k.isLt
    funext a; apply Fin.ext
    match a with
    | ⟨0, _⟩ => show win3_2.index t (0 : Fin 2) * 256 + 1 * k.val = k.val; omega
    | ⟨1, _⟩ => show win3_2.index t (1 : Fin 2) * 256 + 1 * q.val = q.val; omega
  have h3 : ∀ k : Fin 256, ((cfg3.win 3).blk t).view.emb (ix2 k q) = ix2 k q := fun k => by
    have hk : k.val < 256 := k.isLt
    funext a; apply Fin.ext
    match a with
    | ⟨0, _⟩ => show win3_3.index t (0 : Fin 2) * 256 + 1 * k.val = k.val; omega
    | ⟨1, _⟩ => show win3_3.index t (1 : Fin 2) * 256 + 1 * q.val = q.val; omega
  have h4 : ((cfg3.win 4).blk t).view.emb (ix2 (0 : Fin 1) q) = ix2 (0 : Fin 1) q := by
    funext a; apply Fin.ext
    match a with
    | ⟨0, _⟩ => show win3_4.index t (0 : Fin 2) * 1 + 1 * 0 = 0; omega
    | ⟨1, _⟩ => show win3_4.index t (1 : Fin 2) * 256 + 1 * q.val = q.val; omega
  refine (payload_at (iblk3 V c 0 t) (iblk3 V c 1 t) (iblk3 V c 2 t) (iblk3 V c 3 t) (iblk3 V c 4 t) p q).trans ?_
  show _ = layerArr V c (((cfg3.win 5).blk t).view.emb (ix2 p q))
  rw [h5]
  unfold layerArr layerAt
  refine congrArg₂ max (congrArg₂ (· + ·) (congrArg₂ (· + ·) (Finset.sum_congr rfl fun k _ => ?_) (Finset.sum_congr rfl fun k _ => ?_)) ?_) rfl
  · exact congrArg₂ (· * ·) (congrArg (V c (Pipeline.arrRef spec3 0)) (h0 k)) (congrArg (V c (Pipeline.arrRef spec3 2)) (h2 k))
  · exact congrArg₂ (· * ·) (congrArg (V c (Pipeline.arrRef spec3 1)) (h1 k)) (congrArg (V c (Pipeline.arrRef spec3 3)) (h3 k))
  · exact congrArg (V c (Pipeline.arrRef spec3 4)) h4

/-- An index of the array is in point `t`'s block iff each coordinate is in the block's range on its axis. -/
theorem mem_blk (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v99).slice (win3_5.rect t)).set ↔ _
  rw [View.set_slice_whole, Rect.mem_set_unit]
  exact Iff.rfl

/-- Every row of the array is in some point's block: row `r` is in block `r / 2000`. -/
theorem cover (i : S50000x256.Idx) : ∃ t : Fin cfg3.N, (cfg3.win 5).flush t = true ∧ i ∈ ((cfg3.win 5).blk t).view.set := by
  have hi0 : (i 0).val < 50000 := (i 0).isLt
  have hi1 : (i 1).val < 256 := (i 1).isLt
  obtain ⟨t, ht⟩ := idx_onto ⟨(i 0).val / 2000, by omega⟩
  have q0 : win3_5.index t (0 : Fin 2) = (i 0).val / 2000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 256 ≤ (i 1).val ∧ (i 1).val < win3_5.index t (1 : Fin 2) * 256 + 256; omega

/-- The result array after the region: the layer of the arrays the region found. -/
theorem final (c : Dev nD) : (dat3 V c).arrAt 5 cfg3.N = layerArr V c :=
  (dat3 V c).arrAt_eq_of_cover 5 (layerArr V c) (fun t _ => flushed_eq V c t) cover

end Cert.KernelIdeal.Region3

end
-- ==== Proof.Region4.lean ====
import proofs.«143158_j39702677684855_1_alg».proof.Proof.Gen.KernelIdeal.Frame
import proofs.«143158_j39702677684855_1_alg».proof.Proof.LibDot2D
import proofs.«143158_j39702677684855_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region4

open Cert.KernelIdeal Cert.KernelIdeal.Gen Idealize.ShloMosaic Idealize.ShloMosaic.TcCoe Idealize.ShloMosaic.ValueIdx
open Idealize.ShloMosaic.Pipeline (Dat Cfg Window)

open Cert.LayerSpec

/-! ## The block product at an entry -/

theorem d_l0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem d_l1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem d_r0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem d_r1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- A 2000-row block times the projection matrix, into a zero accumulator, at entry (p, q). -/
theorem blockProduct_at (a : S2000x256.Idx → EReal) (b : S256x64.Idx → EReal) (p : Fin 2000) (q : Fin 64) :
    FloatOps.matmul (F := Ideal) (φ₁ := .bf16) (φ₂ := .bf16) dot_S2000x256_S256x64_S2000x64_1_0_0_1_n_n none a b (constant S2000x64 .f32 0x00000000#32) (ix2 p q)
      = ∑ k : Fin 256, a (ix2 p k) * b (ix2 k q) :=
  (Ideal.matmul_constant_zero_apply (φ₁ := .bf16) (φ₂ := .bf16) dot_S2000x256_S256x64_S2000x64_1_0_0_1_n_n none a b (ix2 p q)).trans
    (Dot2D.sum_contr dot_S2000x256_S256x64_S2000x64_1_0_0_1_n_n rfl rfl d_l0 d_l1 d_r0 d_r1 a b p q)

/-- The bias row broadcast down the block, at entry (p, q). -/
theorem biasRow_at (x2 : S1x64.Idx → EReal) (h : S1x64.Broadcasts S2000x64) (p : Fin 2000) (q : Fin 64) :
    broadcastTo S2000x64 x2 h (ix2 p q) = x2 (ix2 0 q) :=
  broadcastTo_apply x2 h (ix2 p q) (ix2 0 q) (fun a => by
    match a with
    | ⟨0, _⟩ => rfl
    | ⟨1, _⟩ => rfl)

/-- What the body stores, at entry (p, q) of the block: the projection's entry of the loaded blocks. -/
theorem payload_at (x0 : Vec Ideal S2000x256 .f32) (x1 : Vec Ideal S256x64 .f32) (x2 : Vec Ideal S1x64 .f32)
    (p : Fin 2000) (q : Fin 64) :
    k4_pay1 (F := Ideal) x0 x1 x2 (ix2 p q) = projAt x0 x1 (fun q => x2 (ix2 0 q)) p q := by
  unfold k4_pay1 projAt
  simp only [shapeCast_self]
  show FloatOps.matmul (F := Ideal) (φ₁ := .bf16) (φ₂ := .bf16) dot_S2000x256_S256x64_S2000x64_1_0_0_1_n_n none x0 x1 (constant S2000x64 .f32 0x00000000#32) (ix2 p q)
      + broadcastTo S2000x64 x2 broadcasts_S1x64_S2000x64 (ix2 p q) = _
  rw [blockProduct_at, biasRow_at]

/-! ## From blocks to the array

  Grid point `t` stages rows 2000·t … 2000·t + 1999 of the last layer's output, the whole projection matrix and the
  bias row, and writes back the same rows of the result: the block a point writes is that block of the projection of
  the arrays as the region finds them, and the 25 blocks tile the 50000 rows. -/

variable (V : (c : Dev nD) → (b : Ref sig .tc) → Buf (Elt Ideal) ((c : Thread nD τ).loc b))

theorem hz : (![0, 0] : Fin 2 → Nat) = fun _ => 0 := funext fun a => by fin_cases a <;> rfl

/-- The projection of the arrays the region finds, as a whole array. -/
def projArr (c : Dev nD) : S50000x64.Idx → EReal := fun i =>
  projAt (N := 50000) (K := 256) (H := 64) (V c (Pipeline.arrRef spec4 0)) (V c (Pipeline.arrRef spec4 1))
    (fun q => V c (Pipeline.arrRef spec4 2) (ix2 0 q)) (i 0) (i 1)

/-- The printed index maps over the grid: the row blocks move together, everything else sits at block 0. -/
theorem idx_facts : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 24 :=
  (by decide +kernel : ∀ t : Fin grid4.N, _)

/-- Every row block is some point's. -/
theorem idx_onto : ∀ (b : Fin 25), ∃ t : Fin cfg4.N, win4_3.index t = ![b.val, 0] :=
  (by decide +kernel : ∀ (b : Fin 25), ∃ t : Fin grid4.N, win4_3.index t = ![b.val, 0])

/-- What point `t` writes back is block `t` of the projection. -/
theorem flushed_eq (c : Dev nD) (t : Fin cfg4.N) :
    (dat4 V c).flushed 3 t = ((cfg4.win 3).blk t).view.read (Elt Ideal) (projArr V c) := by
  show (cfg4.win 3).cut (grid4.coords t) ((dat4 V c).after 3 t) = _
  rw [after4_3]
  unfold out4_3
  rw [View.canon_unit_zero hz]
  simp only [View.ld_unit_zero (S := S2000x256) hz, View.ld_unit_zero (S := S256x64) hz, View.ld_unit_zero (S := S1x64) hz]
  obtain ⟨e00, e01, e10, e11, e20, e21, e31, e30⟩ := idx_facts t
  funext j
  obtain ⟨p, q, rfl⟩ : ∃ (p : Fin 2000) (q : Fin 64), j = ix2 p q := ⟨j 0, j 1, eq_ix2 j⟩
  have hp : p.val < 2000 := p.isLt
  have hq : q.val < 64 := q.isLt
  let r : Fin 50000 := ⟨win4_3.index t (0 : Fin 2) * 2000 + p.val, by omega⟩
  have h3 : ((cfg4.win 3).blk t).view.emb (ix2 p q) = ix2 r q := by
    funext a; apply Fin.ext
    match a with
    | ⟨0, _⟩ => show win4_3.index t (0 : Fin 2) * 2000 + 1 * p.val = win4_3.index t (0 : Fin 2) * 2000 + p.val; omega
    | ⟨1, _⟩ => show win4_3.index t (1 : Fin 2) * 64 + 1 * q.val = q.val; omega
  have h0 : ∀ k : Fin 256, ((cfg4.win 0).blk t).view.emb (ix2 p k) = ix2 r k := fun k => by
    have hk : k.val < 256 := k.isLt
    funext a; apply Fin.ext
    match a with
    | ⟨0, _⟩ => show win4_0.index t (0 : Fin 2) * 2000 + 1 * p.val = win4_3.index t (0 : Fin 2) * 2000 + p.val; omega
    | ⟨1, _⟩ => show win4_0.index t (1 : Fin 2) * 256 + 1 * k.val = k.val; omega
  have h1 : ∀ k : Fin 256, ((cfg4.win 1).blk t).view.emb (ix2 k q) = ix2 k q := fun k => by
    have hk : k.val < 256 := k.isLt
    funext a; apply Fin.ext
    match a with
    | ⟨0, _⟩ => show win4_1.index t (0 : Fin 2) * 256 + 1 * k.val = k.val; omega
    | ⟨1, _⟩ => show win4_1.index t (1 : Fin 2) * 64 + 1 * q.val = q.val; omega
  have h2 : ((cfg4.win 2).blk t).view.emb (ix2 (0 : Fin 1) q) = ix2 (0 : Fin 1) q := by
    funext a; apply Fin.ext
    match a with
    | ⟨0, _⟩ => show win4_2.index t (0 : Fin 2) * 1 + 1 * 0 = 0; omega
    | ⟨1, _⟩ => show win4_2.index t (1 : Fin 2) * 64 + 1 * q.val = q.val; omega
  refine (payload_at (iblk4 V c 0 t) (iblk4 V c 1 t) (iblk4 V c 2 t) p q).trans ?_
  show _ = projArr V c (((cfg4.win 3).blk t).view.emb (ix2 p q))
  rw [h3]
  unfold projArr projAt
  refine congrArg₂ (· + ·) (Finset.sum_congr rfl fun k _ => ?_) ?_
  · exact congrArg₂ (· * ·) (congrArg (V c (Pipeline.arrRef spec4 0)) (h0 k)) (congrArg (V c (Pipeline.arrRef spec4 1)) (h1 k))
  · exact congrArg (V c (Pipeline.arrRef spec4 2)) h2

/-- An index of the array is in point `t`'s block iff each coordinate is in the block's range on its axis. -/
theorem mem_blk (t : Fin cfg4.N) (i : S50000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole main_v101).slice (win4_3.rect t)).set ↔ _
  rw [View.set_slice_whole, Rect.mem_set_unit]
  exact Iff.rfl

/-- Every row of the array is in some point's block: row `r` is in block `r / 2000`. -/
theorem cover (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  obtain ⟨t, ht⟩ := idx_onto ⟨(i 0).val / 2000, by omega⟩
  have q0 : win4_3.index t (0 : Fin 2) = (i 0).val / 2000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 64 ≤ (i 1).val ∧ (i 1).val < win4_3.index t (1 : Fin 2) * 64 + 64; omega

/-- The result array after the region: the projection of the arrays the region found. -/
theorem final (c : Dev nD) : (dat4 V c).arrAt 3 cfg4.N = projArr V c :=
  (dat4 V c).arrAt_eq_of_cover 3 (projArr V c) (fun t _ => flushed_eq V c t) cover

end Cert.KernelIdeal.Region4

end
-- ==== Proof.Boundaries.lean ====
/-
  What the buffers hold at the boundaries between the program's segments.  An argument array is written by no host
  operation and by no region, so at every boundary it still holds its launch contents; the first layer's output is
  written by the first region only, so the later stretches that gather from it find what that region left.
-/
import proofs.«143158_j39702677684855_1_alg».proof.Proof.Gen.KernelIdeal.Frame

set_option maxRecDepth 16384

noncomputable section

namespace Cert.KernelIdeal.Boundaries

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## The arguments at the boundary where a stretch or a region reads them -/

theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W4_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W6_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W6_arg16 (c : Dev nD) : W6 m ρ c (Proc.devRef .tc main_arg16) = m ((c : Thread nD τ).loc main_arg16) :=
  calc W6 m ρ c (Proc.devRef .tc main_arg16)
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W6_arg17 (c : Dev nD) : W6 m ρ c (Proc.devRef .tc main_arg17) = m ((c : Thread nD τ).loc main_arg17) :=
  calc W6 m ρ c (Proc.devRef .tc main_arg17)
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem W8_arg18 (c : Dev nD) : W8 m ρ c (Proc.devRef .tc main_arg18) = m ((c : Thread nD τ).loc main_arg18) :=
  calc W8 m ρ c (Proc.devRef .tc main_arg18)
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

theorem W8_arg19 (c : Dev nD) : W8 m ρ c (Proc.devRef .tc main_arg19) = m ((c : Thread nD τ).loc main_arg19) :=
  calc W8 m ρ c (Proc.devRef .tc main_arg19)
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

/-! ## The first layer's output, where the third and fourth stretches gather from it; the second layer's, where the
   third region reads it -/

theorem W4_main_v24 (c : Dev nD) : W4 m ρ c (Proc.devRef .tc main_v24) = W2 m ρ c (Proc.devRef .tc main_v24) :=
  calc W4 m ρ c (Proc.devRef .tc main_v24)
    _ = W3 m ρ c (Proc.devRef .tc main_v24) := W4_of_ne m ρ c main_v24 (by decide)
    _ = W2 m ρ c (Proc.devRef .tc main_v24) := StableHlo.after_of_forall_not_mem (b := Proc.devRef .tc main_v24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W6_main_v24 (c : Dev nD) : W6 m ρ c (Proc.devRef .tc main_v24) = W2 m ρ c (Proc.devRef .tc main_v24) :=
  calc W6 m ρ c (Proc.devRef .tc main_v24)
    _ = W5 m ρ c (Proc.devRef .tc main_v24) := W6_of_ne m ρ c main_v24 (by decide)
    _ = W4 m ρ c (Proc.devRef .tc main_v24) := StableHlo.after_of_forall_not_mem (b := Proc.devRef .tc main_v24) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v24) := W4_of_ne m ρ c main_v24 (by decide)
    _ = W2 m ρ c (Proc.devRef .tc main_v24) := StableHlo.after_of_forall_not_mem (b := Proc.devRef .tc main_v24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Boundaries

end
-- ==== Proof.HostStretches.lean ====
/-
  The host stretches before each region, as functions of the buffer contents `W` at the stretch's start.  Each stretch
  gathers rows of a feature array along the edges' sources, sums them into the edges' targets, divides by the in-degree
  (at least one), and lays the layer's bias vector out as one row.  These are operation for operation the reference's
  own stages, so the mean a region stages IS the reference's mean of the same arrays; the other arrays a region stages
  pass through the stretch untouched.
-/
import proofs.«143158_j39702677684855_1_alg».proof.Proof.Gen.KernelIdeal.Frame
import proofs.«143158_j39702677684855_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.Stretches

open Cert.KernelIdeal Cert.KernelIdeal.Gen Idealize.ShloMosaic Idealize.ShloMosaic.TcCoe Idealize.SL.Sem Idealize.ShloMosaic.StableHlo
open Idealize.ShloMosaic.ValueIdx

variable (W : Valuation τ sig (Elt Ideal))

/-! ## Before the first region -/

set_option maxHeartbeats 4000000 in
/-- The neighbourhood means of the first feature array along the first edge set. -/
theorem s0_mean : StableHlo.after hostOps0 W (Proc.devRef .tc main_v22)
    = Cert.ReferenceIdeal.Read.val_main_v22 (F := Ideal) (W (Proc.devRef .tc main_arg0)) (W (Proc.devRef .tc main_arg2)) := by
  after_results_simp
  rfl

/-- The bias row the region stages is the bias vector laid out as one row. -/
theorem s0_bias (q : Fin 256) : StableHlo.after hostOps0 W (Proc.devRef .tc main_v23) (ix2 (0 : Fin 1) q) = W (Proc.devRef .tc main_arg7) (ix1 q) := by
  after_results_simp
  refine shapeCast_apply _ _ (ix2 (0 : Fin 1) q) (ix1 q) ?_
  rw [Shape.rowMajor_val_one, Shape.rowMajor_val_two]
  show q.val = 0 * 256 + q.val
  omega

theorem s0_keep_main_arg0 : StableHlo.after hostOps0 W (Proc.devRef .tc main_arg0) = W (Proc.devRef .tc main_arg0) := by
  after_results_simp

theorem s0_keep_main_arg6 : StableHlo.after hostOps0 W (Proc.devRef .tc main_arg6) = W (Proc.devRef .tc main_arg6) := by
  after_results_simp

theorem s0_keep_main_arg8 : StableHlo.after hostOps0 W (Proc.devRef .tc main_arg8) = W (Proc.devRef .tc main_arg8) := by
  after_results_simp

/-! ## Before the second region -/

set_option maxHeartbeats 4000000 in
/-- The neighbourhood means of the second feature array along the second edge set. -/
theorem s1_mean : StableHlo.after hostOps1 W (Proc.devRef .tc main_v47)
    = Cert.ReferenceIdeal.Read.val_main_v52 (F := Ideal) (W (Proc.devRef .tc main_arg1)) (W (Proc.devRef .tc main_arg3)) := by
  after_results_simp
  rfl

/-- The bias row the region stages is the bias vector laid out as one row. -/
theorem s1_bias (q : Fin 256) : StableHlo.after hostOps1 W (Proc.devRef .tc main_v48) (ix2 (0 : Fin 1) q) = W (Proc.devRef .tc main_arg10) (ix1 q) := by
  after_results_simp
  refine shapeCast_apply _ _ (ix2 (0 : Fin 1) q) (ix1 q) ?_
  rw [Shape.rowMajor_val_one, Shape.rowMajor_val_two]
  show q.val = 0 * 256 + q.val
  omega

theorem s1_keep_main_arg1 : StableHlo.after hostOps1 W (Proc.devRef .tc main_arg1) = W (Proc.devRef .tc main_arg1) := by
  after_results_simp

theorem s1_keep_main_arg9 : StableHlo.after hostOps1 W (Proc.devRef .tc main_arg9) = W (Proc.devRef .tc main_arg9) := by
  after_results_simp

theorem s1_keep_main_arg11 : StableHlo.after hostOps1 W (Proc.devRef .tc main_arg11) = W (Proc.devRef .tc main_arg11) := by
  after_results_simp

/-! ## Before the third region -/

set_option maxHeartbeats 4000000 in
/-- The means, along the third edge set, of the first layer's output — when that output is the reference's. -/
theorem s2_mean (x0 : (⟨S50000x128, .f32⟩ : BufTy).Contents (Elt Ideal)) (x2 : (⟨S2x800000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal))
    (h : W (Proc.devRef .tc main_v24) = Cert.ReferenceIdeal.Read.val_main_v29 (F := Ideal) x0 x2 x6 x7 x8) :
    StableHlo.after hostOps2 W (Proc.devRef .tc main_v72)
      = Cert.ReferenceIdeal.Read.val_main_v82 (F := Ideal) x0 x2 (W (Proc.devRef .tc main_arg4)) x6 x7 x8 := by
  after_results_simp
  rw [h]
  rfl

/-- The bias row the region stages is the bias vector laid out as one row. -/
theorem s2_bias (q : Fin 256) : StableHlo.after hostOps2 W (Proc.devRef .tc main_v73) (ix2 (0 : Fin 1) q) = W (Proc.devRef .tc main_arg13) (ix1 q) := by
  after_results_simp
  refine shapeCast_apply _ _ (ix2 (0 : Fin 1) q) (ix1 q) ?_
  rw [Shape.rowMajor_val_one, Shape.rowMajor_val_two]
  show q.val = 0 * 256 + q.val
  omega

theorem s2_keep_main_v49 : StableHlo.after hostOps2 W (Proc.devRef .tc main_v49) = W (Proc.devRef .tc main_v49) := by
  after_results_simp

theorem s2_keep_main_arg12 : StableHlo.after hostOps2 W (Proc.devRef .tc main_arg12) = W (Proc.devRef .tc main_arg12) := by
  after_results_simp

theorem s2_keep_main_arg14 : StableHlo.after hostOps2 W (Proc.devRef .tc main_arg14) = W (Proc.devRef .tc main_arg14) := by
  after_results_simp

/-! ## Before the fourth region -/

set_option maxHeartbeats 4000000 in
/-- The means, along the fourth edge set, of the first layer's output — when that output is the reference's. -/
theorem s3_mean (x0 : (⟨S50000x128, .f32⟩ : BufTy).Contents (Elt Ideal)) (x2 : (⟨S2x800000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal))
    (h : W (Proc.devRef .tc main_v24) = Cert.ReferenceIdeal.Read.val_main_v29 (F := Ideal) x0 x2 x6 x7 x8) :
    StableHlo.after hostOps3 W (Proc.devRef .tc main_v97)
      = Cert.ReferenceIdeal.Read.val_main_v112 (F := Ideal) x0 x2 (W (Proc.devRef .tc main_arg5)) x6 x7 x8 := by
  after_results_simp
  rw [h]
  rfl

/-- The bias row the region stages is the bias vector laid out as one row. -/
theorem s3_bias (q : Fin 256) : StableHlo.after hostOps3 W (Proc.devRef .tc main_v98) (ix2 (0 : Fin 1) q) = W (Proc.devRef .tc main_arg16) (ix1 q) := by
  after_results_simp
  refine shapeCast_apply _ _ (ix2 (0 : Fin 1) q) (ix1 q) ?_
  rw [Shape.rowMajor_val_one, Shape.rowMajor_val_two]
  show q.val = 0 * 256 + q.val
  omega

theorem s3_keep_main_v74 : StableHlo.after hostOps3 W (Proc.devRef .tc main_v74) = W (Proc.devRef .tc main_v74) := by
  after_results_simp

theorem s3_keep_main_arg15 : StableHlo.after hostOps3 W (Proc.devRef .tc main_arg15) = W (Proc.devRef .tc main_arg15) := by
  after_results_simp

theorem s3_keep_main_arg17 : StableHlo.after hostOps3 W (Proc.devRef .tc main_arg17) = W (Proc.devRef .tc main_arg17) := by
  after_results_simp

/-! ## Before the projection -/

/-- The bias row the region stages is the bias vector laid out as one row. -/
theorem s4_bias (q : Fin 64) : StableHlo.after hostOps4 W (Proc.devRef .tc main_v100) (ix2 (0 : Fin 1) q) = W (Proc.devRef .tc main_arg19) (ix1 q) := by
  after_results_simp
  refine shapeCast_apply _ _ (ix2 (0 : Fin 1) q) (ix1 q) ?_
  rw [Shape.rowMajor_val_one, Shape.rowMajor_val_two]
  show q.val = 0 * 64 + q.val
  omega

theorem s4_keep_main_v99 : StableHlo.after hostOps4 W (Proc.devRef .tc main_v99) = W (Proc.devRef .tc main_v99) := by
  after_results_simp

theorem s4_keep_main_arg18 : StableHlo.after hostOps4 W (Proc.devRef .tc main_arg18) = W (Proc.devRef .tc main_arg18) := by
  after_results_simp

end Cert.KernelIdeal.Stretches

end
-- ==== Proof.RefLayers.lean ====
/-
  The reference's four layers and its output projection, entry by entry.  Each layer is, in the reference's own order,
  max ((mean · Wl + b) + x · Wr, 0); read at entry (r, q) through the generated read-at-an-index lemmas it is the layer
  function of the specification, after the one exchange of summands.
-/
import proofs.«143158_j39702677684855_1_alg».proof.Proof.Gen.ReferenceIdeal.Read
import proofs.«143158_j39702677684855_1_alg».proof.Proof.LayerSpec

set_option maxRecDepth 16384

noncomputable section

open scoped BigOperators

namespace Cert.ReferenceIdeal.Layers

open Cert.ReferenceIdeal Cert.ReferenceIdeal.Read Idealize.ShloMosaic Idealize.ShloMosaic.ValueIdx Cert.LayerSpec

/-- Layer 1 of the reference at entry (r, q). -/
theorem layer0_at (x0 : (⟨S50000x128, .f32⟩ : BufTy).Contents (Elt Ideal)) (x2 : (⟨S2x800000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (r : Fin 50000) (q : Fin 256) :
    val_main_v29 (F := Ideal) x0 x2 x6 x7 x8 (ix2 r q)
      = layerAt (N := 50000) (K := 128) (H := 256) (val_main_v22 (F := Ideal) x0 x2) (x0) x6 x8 (fun q => x7 (ix1 q)) r q := by
  have el : ∀ k : Fin 128, lidx_main_v23 (ix2 r q) k = ix2 r k := fun k => funext fun a => by
    match a with | ⟨0, _⟩ => rfl | ⟨1, _⟩ => rfl
  have er : ∀ k : Fin 128, ridx_main_v23 (ix2 r q) k = ix2 k q := fun k => funext fun a => by
    match a with | ⟨0, _⟩ => rfl | ⟨1, _⟩ => rfl
  have el' : ∀ k : Fin 128, lidx_main_v27 (ix2 r q) k = ix2 r k := fun k => funext fun a => by
    match a with | ⟨0, _⟩ => rfl | ⟨1, _⟩ => rfl
  have er' : ∀ k : Fin 128, ridx_main_v27 (ix2 r q) k = ix2 k q := fun k => funext fun a => by
    match a with | ⟨0, _⟩ => rfl | ⟨1, _⟩ => rfl
  have eb : idx_main_v24 (idx_main_v25 (ix2 r q)) = ix1 q := funext fun a => by
    match a with | ⟨0, _⟩ => rfl
  rw [val_main_v29_apply]
  rw [val_main_v28_apply]
  rw [val_main_v26_apply]
  rw [val_main_v23_apply]
  rw [val_main_v25_apply]
  rw [val_main_v24_apply]
  rw [val_main_v27_apply]
  rw [val_main_call0_v0_apply]
  unfold val_main_call0_cst
  rw [constant_apply]
  simp only [el, er, el', er', eb, Ideal.maximumf_def, Ideal.addf_def]
  exact layerAt_comm (val_main_v22 (F := Ideal) x0 x2) (x0) x6 x8 (fun q => x7 (ix1 q)) r q

/-- Layer 2 of the reference at entry (r, q). -/
theorem layer1_at (x1 : (⟨S50000x128, .f32⟩ : BufTy).Contents (Elt Ideal)) (x3 : (⟨S2x800000, .i32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (r : Fin 50000) (q : Fin 256) :
    val_main_v59 (F := Ideal) x1 x3 x9 x10 x11 (ix2 r q)
      = layerAt (N := 50000) (K := 128) (H := 256) (val_main_v52 (F := Ideal) x1 x3) (x1) x9 x11 (fun q => x10 (ix1 q)) r q := by
  have el : ∀ k : Fin 128, lidx_main_v53 (ix2 r q) k = ix2 r k := fun k => funext fun a => by
    match a with | ⟨0, _⟩ => rfl | ⟨1, _⟩ => rfl
  have er : ∀ k : Fin 128, ridx_main_v53 (ix2 r q) k = ix2 k q := fun k => funext fun a => by
    match a with | ⟨0, _⟩ => rfl | ⟨1, _⟩ => rfl
  have el' : ∀ k : Fin 128, lidx_main_v57 (ix2 r q) k = ix2 r k := fun k => funext fun a => by
    match a with | ⟨0, _⟩ => rfl | ⟨1, _⟩ => rfl
  have er' : ∀ k : Fin 128, ridx_main_v57 (ix2 r q) k = ix2 k q := fun k => funext fun a => by
    match a with | ⟨0, _⟩ => rfl | ⟨1, _⟩ => rfl
  have eb : idx_main_v54 (idx_main_v55 (ix2 r q)) = ix1 q := funext fun a => by
    match a with | ⟨0, _⟩ => rfl
  rw [val_main_v59_apply]
  rw [val_main_v58_apply]
  rw [val_main_v56_apply]
  rw [val_main_v53_apply]
  rw [val_main_v55_apply]
  rw [val_main_v54_apply]
  rw [val_main_v57_apply]
  rw [val_main_call1_v0_apply]
  unfold val_main_call1_cst
  rw [constant_apply]
  simp only [el, er, el', er', eb, Ideal.maximumf_def, Ideal.addf_def]
  exact layerAt_comm (val_main_v52 (F := Ideal) x1 x3) (x1) x9 x11 (fun q => x10 (ix1 q)) r q

/-- Layer 3 of the reference at entry (r, q). -/
theorem layer2_at (x0 : (⟨S50000x128, .f32⟩ : BufTy).Contents (Elt Ideal)) (x1 : (⟨S50000x128, .f32⟩ : BufTy).Contents (Elt Ideal)) (x2 : (⟨S2x800000, .i32⟩ : BufTy).Contents (Elt Ideal)) (x3 : (⟨S2x800000, .i32⟩ : BufTy).Contents (Elt Ideal)) (x4 : (⟨S2x800000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (r : Fin 50000) (q : Fin 256) :
    val_main_v89 (F := Ideal) x0 x1 x2 x3 x4 x6 x7 x8 x9 x10 x11 x12 x13 x14 (ix2 r q)
      = layerAt (N := 50000) (K := 256) (H := 256) (val_main_v82 (F := Ideal) x0 x2 x4 x6 x7 x8) (val_main_v59 (F := Ideal) x1 x3 x9 x10 x11) x12 x14 (fun q => x13 (ix1 q)) r q := by
  have el : ∀ k : Fin 256, lidx_main_v83 (ix2 r q) k = ix2 r k := fun k => funext fun a => by
    match a with | ⟨0, _⟩ => rfl | ⟨1, _⟩ => rfl
  have er : ∀ k : Fin 256, ridx_main_v83 (ix2 r q) k = ix2 k q := fun k => funext fun a => by
    match a with | ⟨0, _⟩ => rfl | ⟨1, _⟩ => rfl
  have el' : ∀ k : Fin 256, lidx_main_v87 (ix2 r q) k = ix2 r k := fun k => funext fun a => by
    match a with | ⟨0, _⟩ => rfl | ⟨1, _⟩ => rfl
  have er' : ∀ k : Fin 256, ridx_main_v87 (ix2 r q) k = ix2 k q := fun k => funext fun a => by
    match a with | ⟨0, _⟩ => rfl | ⟨1, _⟩ => rfl
  have eb : idx_main_v84 (idx_main_v85 (ix2 r q)) = ix1 q := funext fun a => by
    match a with | ⟨0, _⟩ => rfl
  rw [val_main_v89_apply]
  rw [val_main_v88_apply]
  rw [val_main_v86_apply]
  rw [val_main_v83_apply]
  rw [val_main_v85_apply]
  rw [val_main_v84_apply]
  rw [val_main_v87_apply]
  rw [val_main_call2_v0_apply]
  unfold val_main_call2_cst
  rw [constant_apply]
  simp only [el, er, el', er', eb, Ideal.maximumf_def, Ideal.addf_def]
  exact layerAt_comm (val_main_v82 (F := Ideal) x0 x2 x4 x6 x7 x8) (val_main_v59 (F := Ideal) x1 x3 x9 x10 x11) x12 x14 (fun q => x13 (ix1 q)) r q

/-- Layer 4 of the reference at entry (r, q). -/
theorem layer3_at (x0 : (⟨S50000x128, .f32⟩ : BufTy).Contents (Elt Ideal)) (x1 : (⟨S50000x128, .f32⟩ : BufTy).Contents (Elt Ideal)) (x2 : (⟨S2x800000, .i32⟩ : BufTy).Contents (Elt Ideal)) (x3 : (⟨S2x800000, .i32⟩ : BufTy).Contents (Elt Ideal)) (x4 : (⟨S2x800000, .i32⟩ : BufTy).Contents (Elt Ideal)) (x5 : (⟨S2x800000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) (r : Fin 50000) (q : Fin 256) :
    val_main_v119 (F := Ideal) x0 x1 x2 x3 x4 x5 x6 x7 x8 x9 x10 x11 x12 x13 x14 x15 x16 x17 (ix2 r q)
      = layerAt (N := 50000) (K := 256) (H := 256) (val_main_v112 (F := Ideal) x0 x2 x5 x6 x7 x8) (val_main_v89 (F := Ideal) x0 x1 x2 x3 x4 x6 x7 x8 x9 x10 x11 x12 x13 x14) x15 x17 (fun q => x16 (ix1 q)) r q := by
  have el : ∀ k : Fin 256, lidx_main_v113 (ix2 r q) k = ix2 r k := fun k => funext fun a => by
    match a with | ⟨0, _⟩ => rfl | ⟨1, _⟩ => rfl
  have er : ∀ k : Fin 256, ridx_main_v113 (ix2 r q) k = ix2 k q := fun k => funext fun a => by
    match a with | ⟨0, _⟩ => rfl | ⟨1, _⟩ => rfl
  have el' : ∀ k : Fin 256, lidx_main_v117 (ix2 r q) k = ix2 r k := fun k => funext fun a => by
    match a with | ⟨0, _⟩ => rfl | ⟨1, _⟩ => rfl
  have er' : ∀ k : Fin 256, ridx_main_v117 (ix2 r q) k = ix2 k q := fun k => funext fun a => by
    match a with | ⟨0, _⟩ => rfl | ⟨1, _⟩ => rfl
  have eb : idx_main_v114 (idx_main_v115 (ix2 r q)) = ix1 q := funext fun a => by
    match a with | ⟨0, _⟩ => rfl
  rw [val_main_v119_apply]
  rw [val_main_v118_apply]
  rw [val_main_v116_apply]
  rw [val_main_v113_apply]
  rw [val_main_v115_apply]
  rw [val_main_v114_apply]
  rw [val_main_v117_apply]
  rw [val_main_call3_v0_apply]
  unfold val_main_call3_cst
  rw [constant_apply]
  simp only [el, er, el', er', eb, Ideal.maximumf_def, Ideal.addf_def]
  exact layerAt_comm (val_main_v112 (F := Ideal) x0 x2 x5 x6 x7 x8) (val_main_v89 (F := Ideal) x0 x1 x2 x3 x4 x6 x7 x8 x9 x10 x11 x12 x13 x14) x15 x17 (fun q => x16 (ix1 q)) r q

/-- The output projection of the reference at entry (r, q). -/
theorem proj_at (x0 : (⟨S50000x128, .f32⟩ : BufTy).Contents (Elt Ideal)) (x1 : (⟨S50000x128, .f32⟩ : BufTy).Contents (Elt Ideal)) (x2 : (⟨S2x800000, .i32⟩ : BufTy).Contents (Elt Ideal)) (x3 : (⟨S2x800000, .i32⟩ : BufTy).Contents (Elt Ideal)) (x4 : (⟨S2x800000, .i32⟩ : BufTy).Contents (Elt Ideal)) (x5 : (⟨S2x800000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) (x18 : (⟨S256x64, .f32⟩ : BufTy).Contents (Elt Ideal)) (x19 : (⟨S64, .f32⟩ : BufTy).Contents (Elt Ideal)) (r : Fin 50000) (q : Fin 64) :
    val_main_v123 (F := Ideal) x0 x1 x2 x3 x4 x5 x6 x7 x8 x9 x10 x11 x12 x13 x14 x15 x16 x17 x18 x19 (ix2 r q)
      = projAt (N := 50000) (K := 256) (H := 64) (val_main_v119 (F := Ideal) x0 x1 x2 x3 x4 x5 x6 x7 x8 x9 x10 x11 x12 x13 x14 x15 x16 x17) x18 (fun q => x19 (ix1 q)) r q := by
  have el : ∀ k : Fin 256, lidx_main_v120 (ix2 r q) k = ix2 r k := fun k => funext fun a => by
    match a with | ⟨0, _⟩ => rfl | ⟨1, _⟩ => rfl
  have er : ∀ k : Fin 256, ridx_main_v120 (ix2 r q) k = ix2 k q := fun k => funext fun a => by
    match a with | ⟨0, _⟩ => rfl | ⟨1, _⟩ => rfl
  have eb : idx_main_v121 (idx_main_v122 (ix2 r q)) = ix1 q := funext fun a => by
    match a with | ⟨0, _⟩ => rfl
  rw [val_main_v123_apply, val_main_v120_apply, val_main_v122_apply, val_main_v121_apply]
  simp only [el, er, eb, Ideal.addf_def]
  rfl

end Cert.ReferenceIdeal.Layers

end
-- ==== Proof.Chain.lean ====
/-
  The kernel's five regions against the reference's five stages, by induction along the program: if the arrays a
  region stages are the reference's arrays, the array it leaves is the reference's next array.

  Each region leaves the layer function (or the projection) of the arrays it finds (the region modules); the arrays it
  finds are what the preceding host stretch computed from the contents at the preceding boundary (the stretch module);
  those contents are the launch arguments and the earlier regions' outputs (the boundary module); and the reference's
  stage is the same layer function of the same arrays (the reference-layer module).
-/
import proofs.«143158_j39702677684855_1_alg».proof.Proof.Region0
import proofs.«143158_j39702677684855_1_alg».proof.Proof.Region1
import proofs.«143158_j39702677684855_1_alg».proof.Proof.Region2
import proofs.«143158_j39702677684855_1_alg».proof.Proof.Region3
import proofs.«143158_j39702677684855_1_alg».proof.Proof.Region4
import proofs.«143158_j39702677684855_1_alg».proof.Proof.Boundaries
import proofs.«143158_j39702677684855_1_alg».proof.Proof.HostStretches
import proofs.«143158_j39702677684855_1_alg».proof.Proof.RefLayers

set_option maxRecDepth 16384

noncomputable section

open scoped BigOperators

namespace Cert.KernelIdeal.Chain

open Cert.KernelIdeal Cert.KernelIdeal.Gen Idealize.ShloMosaic Idealize.ShloMosaic.TcCoe Idealize.SL.Sem
open Idealize.ShloMosaic.ValueIdx Cert.LayerSpec

/-- A layer's entry depends only on the arrays' values. -/
theorem layerAt_congr {N K H : ℕ} {mean mean' xd xd' : (⟨2, ![N, K]⟩ : Shape).Idx → EReal}
    {wl wl' wr wr' : (⟨2, ![K, H]⟩ : Shape).Idx → EReal} {b b' : Fin H → EReal}
    (h0 : mean = mean') (h1 : xd = xd') (h2 : wl = wl') (h3 : wr = wr') (h4 : ∀ q, b q = b' q) (r : Fin N) (q : Fin H) :
    layerAt mean xd wl wr b r q = layerAt mean' xd' wl' wr' b' r q := by
  subst h0 h1 h2 h3
  obtain rfl : b = b' := funext h4
  rfl

/-- The projection's entry depends only on the arrays' values. -/
theorem projAt_congr {N K H : ℕ} {x x' : (⟨2, ![N, K]⟩ : Shape).Idx → EReal}
    {w w' : (⟨2, ![K, H]⟩ : Shape).Idx → EReal} {b b' : Fin H → EReal}
    (h0 : x = x') (h1 : w = w') (h2 : ∀ q, b q = b' q) (r : Fin N) (q : Fin H) :
    projAt x w b r q = projAt x' w' b' r q := by
  subst h0 h1
  obtain rfl : b = b' := funext h2
  rfl

variable (m : (ℓ : Loc nD τ sig) → Buf (Elt Ideal) ℓ) (ρ : Dev nD → PrngReg)

/-- The first region leaves the reference's first layer (of the first feature array along the first edge set). -/
theorem layer0 (c : Dev nD) :
    W2 m ρ c (Proc.devRef .tc main_v24) = Cert.ReferenceIdeal.Read.val_main_v29 (F := Ideal) (m ((c : Thread nD τ).loc main_arg0)) (m ((c : Thread nD τ).loc main_arg2)) (m ((c : Thread nD τ).loc main_arg6)) (m ((c : Thread nD τ).loc main_arg7)) (m ((c : Thread nD τ).loc main_arg8)) := by
  refine (W2_arr m ρ c 5).trans ((Region0.final (V1 m ρ) c).trans (funext fun i => ?_))
  obtain ⟨r, q, rfl⟩ : ∃ (r : Fin 50000) (q : Fin 256), i = ix2 r q := ⟨i 0, i 1, eq_ix2 i⟩
  refine Eq.trans ?_ (Cert.ReferenceIdeal.Layers.layer0_at (m ((c : Thread nD τ).loc main_arg0)) (m ((c : Thread nD τ).loc main_arg2)) (m ((c : Thread nD τ).loc main_arg6)) (m ((c : Thread nD τ).loc main_arg7)) (m ((c : Thread nD τ).loc main_arg8)) r q).symm
  exact layerAt_congr (Stretches.s0_mean (W0 m ρ c)) (Stretches.s0_keep_main_arg0 (W0 m ρ c)) (Stretches.s0_keep_main_arg6 (W0 m ρ c))
    (Stretches.s0_keep_main_arg8 (W0 m ρ c)) (fun q => Stretches.s0_bias (W0 m ρ c) q) r q

/-- The second region leaves the reference's second layer (of the second feature array along the second edge set). -/
theorem layer1 (c : Dev nD) :
    W4 m ρ c (Proc.devRef .tc main_v49) = Cert.ReferenceIdeal.Read.val_main_v59 (F := Ideal) (m ((c : Thread nD τ).loc main_arg1)) (m ((c : Thread nD τ).loc main_arg3)) (m ((c : Thread nD τ).loc main_arg9)) (m ((c : Thread nD τ).loc main_arg10)) (m ((c : Thread nD τ).loc main_arg11)) := by
  refine (W4_arr m ρ c 5).trans ((Region1.final (V3 m ρ) c).trans (funext fun i => ?_))
  obtain ⟨r, q, rfl⟩ : ∃ (r : Fin 50000) (q : Fin 256), i = ix2 r q := ⟨i 0, i 1, eq_ix2 i⟩
  refine Eq.trans ?_ (Cert.ReferenceIdeal.Layers.layer1_at (m ((c : Thread nD τ).loc main_arg1)) (m ((c : Thread nD τ).loc main_arg3)) (m ((c : Thread nD τ).loc main_arg9)) (m ((c : Thread nD τ).loc main_arg10)) (m ((c : Thread nD τ).loc main_arg11)) r q).symm
  refine layerAt_congr ((Stretches.s1_mean (W2 m ρ c)).trans ?_) ((Stretches.s1_keep_main_arg1 (W2 m ρ c)).trans (Boundaries.W2_arg1 m ρ c))
    ((Stretches.s1_keep_main_arg9 (W2 m ρ c)).trans (Boundaries.W2_arg9 m ρ c))
    ((Stretches.s1_keep_main_arg11 (W2 m ρ c)).trans (Boundaries.W2_arg11 m ρ c))
    (fun q => (Stretches.s1_bias (W2 m ρ c) q).trans (congrFun (Boundaries.W2_arg10 m ρ c) (ix1 q))) r q
  rw [Boundaries.W2_arg1 m ρ c, Boundaries.W2_arg3 m ρ c]

/-- The third region leaves the reference's third layer. -/
theorem layer2 (c : Dev nD) :
    W6 m ρ c (Proc.devRef .tc main_v74) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W6_arr m ρ c 5).trans ((Region2.final (V5 m ρ) c).trans (funext fun i => ?_))
  obtain ⟨r, q, rfl⟩ : ∃ (r : Fin 50000) (q : Fin 256), i = ix2 r q := ⟨i 0, i 1, eq_ix2 i⟩
  refine Eq.trans ?_ (Cert.ReferenceIdeal.Layers.layer2_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) r q).symm
  refine layerAt_congr
    ((Stretches.s2_mean (W4 m ρ c) (m ((c : Thread nD τ).loc main_arg0)) (m ((c : Thread nD τ).loc main_arg2)) (m ((c : Thread nD τ).loc main_arg6)) (m ((c : Thread nD τ).loc main_arg7)) (m ((c : Thread nD τ).loc main_arg8)) ((Boundaries.W4_main_v24 m ρ c).trans (layer0 m ρ c))).trans ?_)
    ((Stretches.s2_keep_main_v49 (W4 m ρ c)).trans (layer1 m ρ c))
    ((Stretches.s2_keep_main_arg12 (W4 m ρ c)).trans (Boundaries.W4_arg12 m ρ c))
    ((Stretches.s2_keep_main_arg14 (W4 m ρ c)).trans (Boundaries.W4_arg14 m ρ c))
    (fun q => (Stretches.s2_bias (W4 m ρ c) q).trans (congrFun (Boundaries.W4_arg13 m ρ c) (ix1 q))) r q
  rw [Boundaries.W4_arg4 m ρ c]

/-- The fourth region leaves the reference's fourth layer. -/
theorem layer3 (c : Dev nD) :
    W8 m ρ c (Proc.devRef .tc main_v99) = Cert.ReferenceIdeal.Read.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W8_arr m ρ c 5).trans ((Region3.final (V7 m ρ) c).trans (funext fun i => ?_))
  obtain ⟨r, q, rfl⟩ : ∃ (r : Fin 50000) (q : Fin 256), i = ix2 r q := ⟨i 0, i 1, eq_ix2 i⟩
  refine Eq.trans ?_ (Cert.ReferenceIdeal.Layers.layer3_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) r q).symm
  refine layerAt_congr
    ((Stretches.s3_mean (W6 m ρ c) (m ((c : Thread nD τ).loc main_arg0)) (m ((c : Thread nD τ).loc main_arg2)) (m ((c : Thread nD τ).loc main_arg6)) (m ((c : Thread nD τ).loc main_arg7)) (m ((c : Thread nD τ).loc main_arg8)) ((Boundaries.W6_main_v24 m ρ c).trans (layer0 m ρ c))).trans ?_)
    ((Stretches.s3_keep_main_v74 (W6 m ρ c)).trans (layer2 m ρ c))
    ((Stretches.s3_keep_main_arg15 (W6 m ρ c)).trans (Boundaries.W6_arg15 m ρ c))
    ((Stretches.s3_keep_main_arg17 (W6 m ρ c)).trans (Boundaries.W6_arg17 m ρ c))
    (fun q => (Stretches.s3_bias (W6 m ρ c) q).trans (congrFun (Boundaries.W6_arg16 m ρ c) (ix1 q))) r q
  rw [Boundaries.W6_arg5 m ρ c]

/-- The last region leaves the reference's result. -/
theorem result (c : Dev nD) :
    W10 m ρ c (Proc.devRef .tc main_v101) = Cert.ReferenceIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W10_arr m ρ c 3).trans ((Region4.final (V9 m ρ) c).trans (funext fun i => ?_))
  obtain ⟨r, q, rfl⟩ : ∃ (r : Fin 50000) (q : Fin 64), i = ix2 r q := ⟨i 0, i 1, eq_ix2 i⟩
  refine Eq.trans ?_ (Cert.ReferenceIdeal.Layers.proj_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) r q).symm
  exact projAt_congr ((Stretches.s4_keep_main_v99 (W8 m ρ c)).trans (layer3 m ρ c))
    ((Stretches.s4_keep_main_arg18 (W8 m ρ c)).trans (Boundaries.W8_arg18 m ρ c))
    (fun q => (Stretches.s4_bias (W8 m ρ c) q).trans (congrFun (Boundaries.W8_arg19 m ρ c) (ix1 q))) r q

end Cert.KernelIdeal.Chain

end
-- ==== Proof.lean ====
/-
  A four-layer graph network over two vertex sets (50000 vertices each, 800000 edges per edge set) followed by a linear
  projection.  A layer averages the source features of a vertex's incoming edges (gather along the sources, scatter-add
  into the targets, divide by the in-degree, at least one), multiplies the means and the vertex's own features by two
  weight matrices, adds a bias and rectifies.

  The kernel computes the means with the same host operations as the reference and the dense part
  max (mean · Wl + x · Wr + b, 0) in a tiled region of 25 row blocks (the projection likewise, without the rectifier);
  the reference computes max ((mean · Wl + b) + x · Wr, 0) on whole arrays.  Over the extended reals the block product
  into a zero accumulator and the whole-array product are the same sum over the contracted axis, the change of float
  format is the identity, and the two orders of the three summands agree because addition is commutative and
  associative: no finiteness of the inputs is needed, and the precondition is never opened.

  The proof follows the program: each region leaves the layer function of the arrays it finds (Region0 … Region4); the
  arrays it finds are the preceding stretch's results, which are the reference's own stages of the same arrays
  (HostStretches, Boundaries); the reference's stage is the same layer function (RefLayers); so, layer by layer, the
  kernel's arrays are the reference's (Chain), and the kernel's run ends with the reference's result (KernelRun).
-/
import proofs.«143158_j39702677684855_1_alg».proof.Defs
import proofs.«143158_j39702677684855_1_alg».proof.Proof.Gen.Kernel
import proofs.«143158_j39702677684855_1_alg».proof.Proof.Gen.Kernel.Skeleton
import proofs.«143158_j39702677684855_1_alg».proof.Proof.Gen.Kernel.Launch
import proofs.«143158_j39702677684855_1_alg».proof.Proof.Gen.Kernel.Points
import proofs.«143158_j39702677684855_1_alg».proof.Proof.Gen.Kernel.Frame
import proofs.«143158_j39702677684855_1_alg».proof.Proof.Gen.KernelIdeal
import proofs.«143158_j39702677684855_1_alg».proof.Proof.Gen.KernelIdeal.Skeleton
import proofs.«143158_j39702677684855_1_alg».proof.Proof.Gen.KernelIdeal.Launch
import proofs.«143158_j39702677684855_1_alg».proof.Proof.Gen.KernelIdeal.Points
import proofs.«143158_j39702677684855_1_alg».proof.Proof.Gen.KernelIdeal.Frame
import proofs.«143158_j39702677684855_1_alg».proof.Proof.Gen.ReferenceIdeal
import proofs.«143158_j39702677684855_1_alg».proof.Proof.Gen.Pre_finite_inputs
import proofs.«143158_j39702677684855_1_alg».proof.Proof.Gen.ReferenceIdeal.Run
import proofs.«143158_j39702677684855_1_alg».proof.Proof.Gen.ReferenceIdeal.Read
import proofs.«143158_j39702677684855_1_alg».proof.Proof.KernelRun
import proofs.«143158_j39702677684855_1_alg».proof.Proof.Chain
import Idealize.ShloMosaic.Adequacy
import Idealize.ShloMosaic.Init

set_option maxRecDepth 16384

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the reference's result term of the (agreeing) arguments. -/
theorem algebraic : Cert.algebraic_KernelIdeal_ReferenceIdeal := by
  intro m ρ m' ρ' _ hagree
  refine ⟨fun c => Cert.ReferenceIdeal.Read.val_main_v123 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono
      (fun r h c => ⟨(h c).1.trans (Cert.KernelIdeal.Chain.result m ρ c), (h c).2⟩) (Cert.KernelIdeal.RunValue.run m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19⟩ := hagree c
    rw [Cert.ReferenceIdeal.Read.val_main_v123_eq, h0, h1, h2, h3, h4, h5, h6, h7, h8, h9, h10, h11, h12, h13, h14, h15, h16, h17, h18, h19]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
